-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x16384 : Shape := ⟨2, ![8192, 16384]⟩
abbrev S16384x1024 : Shape := ⟨2, ![16384, 1024]⟩
abbrev S1024x1024 : Shape := ⟨2, ![1024, 1024]⟩
abbrev S_ : Shape := ⟨0, ![]⟩

class Facts : Prop where
  bcast_S_S8192x16384 : S_.BroadcastsInDim S8192x16384 (![] : Fin 0 → Fin S8192x16384.rank)
  reducesTo_S8192x16384_S_d0_1 : S8192x16384.ReducesTo [0, 1] S_
  h_S_ : 0 < S_.numel
  bcast_S_S16384x1024 : S_.BroadcastsInDim S16384x1024 (![] : Fin 0 → Fin S16384x1024.rank)
  reducesTo_S16384x1024_S_d0_1 : S16384x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S8192x16384 .f32) (main_arg1 : FVec F S16384x1024 .f32) (main_arg2 : FVec F S1024x1024 .f32) (main_arg3 : FVec F S1024x1024 .f32) : IVec S_ 1 :=
  let main_v0 : FVec F S8192x16384 .f32 := Host.absf main_arg0
  let main_cst : FVec F S_ .f32 := constant S_ .f32 0x7F800000#32
  let main_v1 : FVec F S8192x16384 .f32 := broadcastInDim S8192x16384 ![] bcast_S_S8192x16384 main_cst
  let main_v2 : IVec S8192x16384 1 := cmpf .olt main_v0 main_v1
  let main_c : IVec S_ 1 := constantI S_ 1 1#1
  let main_v3 : IVec S_ 1 := (fun x v => Host.reduce IntOp.andi x v reducesTo_S8192x16384_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S8192x16384 : Shape := ⟨2, ![8192, 16384]⟩
abbrev S16384x1024 : Shape := ⟨2, ![16384, 1024]⟩
abbrev S1024x1024 : Shape := ⟨2, ![1024, 1024]⟩
abbrev S2048x1024 : Shape := ⟨2, ![2048, 1024]⟩
abbrev S8192x1024 : Shape := ⟨2, ![8192, 1024]⟩
abbrev S512x2048 : Shape := ⟨2, ![512, 2048]⟩
abbrev S512x1024 : Shape := ⟨2, ![512, 1024]⟩

abbrev nBuf : Space → Nat
  | .hbm => 10
  | .vmem => 15
  | .smem => 0
  | _ => 0

abbrev bufTy : (tb : Table) → Fin (tcTables nBuf tb) → BufTy
  | .hbm, ⟨0, _⟩ => ⟨S8192x16384, .f32⟩
  | .hbm, ⟨1, _⟩ => ⟨S16384x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .bf16⟩
  | .hbm, ⟨6, _⟩ => ⟨S1024x1024, .f32⟩
  | .hbm, ⟨7, _⟩ => ⟨S1024x1024, .bf16⟩
  | .hbm, ⟨8, _⟩ => ⟨S16384x1024, .bf16⟩
  | .hbm, ⟨9, _⟩ => ⟨S8192x1024, .f32⟩
  | .local _ .vmem, ⟨0, _⟩ => ⟨S2048x1024, .f32⟩
  | .local _ .vmem, ⟨1, _⟩ => ⟨S2048x1024, .f32⟩
  | .local _ .vmem, ⟨2, _⟩ => ⟨S1024x1024, .bf16⟩
  | .local _ .vmem, ⟨3, _⟩ => ⟨S2048x1024, .bf16⟩
  | .local _ .vmem, ⟨4, _⟩ => ⟨S2048x1024, .bf16⟩
  | .local _ .vmem, ⟨5, _⟩ => ⟨S512x2048, .f32⟩
  | .local _ .vmem, ⟨6, _⟩ => ⟨S512x2048, .f32⟩
  | .local _ .vmem, ⟨7, _⟩ => ⟨S2048x1024, .bf16⟩
  | .local _ .vmem, ⟨8, _⟩ => ⟨S2048x1024, .bf16⟩
  | .local _ .vmem, ⟨9, _⟩ => ⟨S512x1024, .f32⟩
  | .local _ .vmem, ⟨10, _⟩ => ⟨S512x1024, .f32⟩
  | .local _ .vmem, ⟨11, _⟩ => ⟨S1024x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | _, _ => ⟨S8192x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 8], ![false, false]⟩

def k1_cond2 (i : grid1.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  transposes_S1024x1024_S1024x1024_1_0 : S1024x1024.Transposes [1, 0] S1024x1024
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S2048x1024_S2048x1024_0_0 : (Rect.unit (s := S2048x1024) ![0, 0] S2048x1024.size inb_S2048x1024_S2048x1024_0_0).PackedRows (EltTy.packing .bf16)
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x2048_S512x2048_0_0 : ∀ a, (![0, 0] : Fin 2 → Nat) a + S512x2048.size a ≤ S512x2048.size a
  h_S512x2048 : 0 < S512x2048.numel
  shapeCasts_S2048x1024_S2048x1024 : S2048x1024.ShapeCasts S2048x1024
  dot_S2048x1024_S1024x1024_S2048x1024_1_0_0_1_n_n_wf : DotDims.WF S2048x1024 S1024x1024 S2048x1024 [1] [0] [0] [1] [] []
  dot_S512x1024_S1024x1024_S512x1024_1_0_0_1_n_n_wf : DotDims.WF S512x1024 S1024x1024 S512x1024 [1] [0] [0] [1] [] []
  dot_S512x2048_S2048x1024_S512x1024_1_0_0_1_n_n_wf : DotDims.WF S512x2048 S2048x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S16384x1024.size a
  hwx0_0 : ∀ i : grid0.Coords, EltTy.bits .f32 = 32 ∨ (Rect.block (s := S16384x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S16384x1024.size a
  hwx0_2 : ∀ i : grid0.Coords, EltTy.bits .bf16 = 32 ∨ (Rect.block (s := S16384x1024) S2048x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S8192x16384.size a
  hwx1_0 : ∀ i : grid1.Coords, EltTy.bits .f32 = 32 ∨ (Rect.block (s := S8192x16384) S512x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1024.size a ≤ S16384x1024.size a
  hwx1_1 : ∀ i : grid1.Coords, EltTy.bits .bf16 = 32 ∨ (Rect.block (s := S16384x1024) S2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S16384x1024.size a
  hwx1_2 : ∀ i : grid1.Coords, EltTy.bits .f32 = 32 ∨ (Rect.block (s := S16384x1024) S512x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .bf16 = 32 ∨ (Rect.block (s := S1024x1024) S1024x1024.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x1024.size a ≤ S8192x1024.size a
  hwx1_4 : ∀ i : grid1.Coords, EltTy.bits .f32 = 32 ∨ (Rect.block (s := S8192x1024) S512x1024.size (cc1_transform_4 i) (hinb1_4 i)).WholeWords (EltTy.packing .f32)

variable [Facts₀]

def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_arg1) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S512x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8192x16384 : Shape := ⟨2, ![8192, 16384]⟩
abbrev S16384x1024 : Shape := ⟨2, ![16384, 1024]⟩
abbrev S1024x1024 : Shape := ⟨2, ![1024, 1024]⟩
abbrev S8192x1024 : Shape := ⟨2, ![8192, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x16384, .f32⟩
  | .hbm, ⟨1, _⟩ => ⟨S16384x1024, .f32⟩
  | .hbm, ⟨2, _⟩ => ⟨S1024x1024, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S16384x1024, .f32⟩
  | .hbm, ⟨7, _⟩ => ⟨S8192x1024, .f32⟩
  | .hbm, ⟨8, _⟩ => ⟨S8192x1024, .f32⟩
  | _, _ => ⟨S8192x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  slices_S16384x1024_S8192x1024_0_0 : S16384x1024.Slices ![0, 0] S8192x1024
  dot_S8192x1024_S1024x1024_S8192x1024_1_1_0_0_n_n_wf : DotDims.WF S8192x1024 S1024x1024 S8192x1024 [1] [1] [0] [0] [] []
  dot_S16384x1024_S1024x1024_S16384x1024_1_1_0_0_n_n_wf : DotDims.WF S16384x1024 S1024x1024 S16384x1024 [1] [1] [0] [0] [] []
  dot_S8192x16384_S16384x1024_S8192x1024_1_0_0_1_n_n_wf : DotDims.WF S8192x16384 S16384x1024 S8192x1024 [1] [0] [0] [1] [] []

variable [Facts₀]

def dot_S8192x1024_S1024x1024_S8192x1024_1_1_0_0_n_n : DotDims S8192x1024 S1024x1024 S8192x1024 where
  lhsContracting := [1]
  rhsContracting := [1]
  lhsNonContracting := [0]
  rhsNonContracting := [0]
  lhsBatch := []
  rhsBatch := []
  wf := dot_S8192x1024_S1024x1024_S8192x1024_1_1_0_0_n_n_wf
def dot_S16384x1024_S1024x1024_S16384x1024_1_1_0_0_n_n : DotDims S16384x1024 S1024x1024 S16384x1024 where
  lhsContracting := [1]
  rhsContracting := [1]
  lhsNonContracting := [0]
  rhsNonContracting := [0]
  lhsBatch := []
  rhsBatch := []
  wf := dot_S16384x1024_S1024x1024_S16384x1024_1_1_0_0_n_n_wf
def dot_S8192x16384_S16384x1024_S8192x1024_1_0_0_1_n_n : DotDims S8192x16384 S16384x1024 S8192x1024 where
  lhsContracting := [1]
  rhsContracting := [0]
  lhsNonContracting := [0]
  rhsNonContracting := [1]
  lhsBatch := []
  rhsBatch := []
  wf := dot_S8192x16384_S16384x1024_S8192x1024_1_0_0_1_n_n_wf

class Facts : Prop extends Facts₀ where

variable [Facts]
-- ==== Proof.Bits.Region0.lean ====
/-
  The first kernel region: the projection of every source row by the neighbour weights.

  The region walks 8 grid points; point t stages rows 2048·t … 2048·t + 2047 of the source array (window 0), the whole
  transposed weight matrix (window 1, fetched once), and writes back the same rows of the projected array (window 2).
  At a point the body loads the two input blocks whole, multiplies them into a zero accumulator and stores the product
  whole into the output's staging buffer; nothing is carried from one point to the next. This module states, for any
  float instance and any contents `V` of the buffers when the region is entered: each window's block at a point, what
  the body leaves in the output's buffer as a function of the two input blocks, the body's triple, the region's proof
  data, and the body obligation at every point.
-/
import proofs.«174376_j14001593385221_2_alg».proof.Proof.Gen.Kernel.Launch
import proofs.«174376_j14001593385221_2_alg».proof.Proof.Gen.Kernel.Skeleton
import proofs.«174376_j14001593385221_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (where it is not
    fetched its block index has not moved), for any proof data over `V`'s arrays whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rX0 : Rect S2048x1024 := Rect.unit (s := S2048x1024) ![0, 0] S2048x1024.size inb_S2048x1024_S2048x1024_0_0
abbrev rW0 : Rect S1024x1024 := Rect.unit (s := S1024x1024) ![0, 0] S1024x1024.size inb_S1024x1024_S1024x1024_0_0

/-! ## What the body leaves in the output window's buffer -/

/-- The output's staging buffer after the body: its one whole store, the product of the two input blocks. -/
def out0_2 (x0 : Vec F S2048x1024 .f32) (x1 : Vec F S1024x1024 .bf16) : Vec F S2048x1024 .bf16 :=
  View.canon [⟨rX0, k0_pay1 (View.ld x0 rX0) (View.ld x1 rW0)⟩]

/-- The one store covers the buffer. -/
theorem cover0_2 (p0 : Vec F S2048x1024 .bf16) (y : S2048x1024.Idx) :
    ∃ pc ∈ ([⟨rX0, p0⟩] : List (View.Piece (Elt F) S2048x1024 .bf16)), y ∈ pc.1.set :=
  View.cover_of_tiled [⟨rX0, p0⟩] S2048x1024.size (by rfl) y

/-! ## The body's triple -/

set_option maxHeartbeats 1000000 in
/-- On whole staging memrefs, the inputs' at contents `x0`, `x1` and the output's at anything, the body runs to the
    continuation holding the inputs' as they were and the output's at `out0_2 x0 x1`. -/
theorem sound_kernel0 (c : Dev nD) (E : Set ℕ) (i : grid0.Coords) (arg1 : Memref sig .tc .vmem S2048x1024 .f32) (harg1 : arg1.IsWhole)
    (arg2 : Memref sig .tc .vmem S1024x1024 .bf16) (harg2 : arg2.IsWhole) (arg3 : Memref sig .tc .vmem S2048x1024 .bf16) (harg3 : arg3.IsWhole)
    (x0 : Vec F S2048x1024 .f32) (x1 : Vec F S1024x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__xw_kernel i arg1 harg1 arg2 harg2 arg3 harg3) K := by
  simp only [cc0__xw_kernel_eq_skeleton]; unfold cc0__xw_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The region's proof data -/

/-- The arrays as the region finds them; after the body at point `t` each input's buffer at its block and the output's
    at the product of the two blocks; the invariant the scoped rest and the generator register, untouched; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Bits.R1Base.lean ====
/-
  The second kernel region, what its three cases share.

  The region walks a 16 × 8 grid, the second coordinate `k` innermost: point t has row block t / 8 and source block
  k = t % 8. It stages a 512 × 2048 block of `block` (window 0), 2048 rows of the projected array (window 1), 512 rows of
  the source array (window 2, refetched when the row block changes), the transposed self weights (window 3, fetched
  once) and writes back 512 rows of the result (window 4) at the last source block only. A scratch accumulator of one
  output block is carried from point to point. The body has two conditionals on `k`: at k = 0 it first sets the
  accumulator to the self product; at every point it adds the product of the two staged blocks; at k = 7 it copies the
  accumulator to the output's staging buffer. So three cases occur: k = 0, 0 < k < 7, k = 7.

  Here: each window's block at a point, the input windows' buffers holding their blocks at every point, the two
  conditions in closed form over the grid, where the output window is idle and where it is written back, and the names
  of the memrefs the body is called with.
-/
import proofs.«174376_j14001593385221_2_alg».proof.Proof.Gen.Kernel.Launch
import proofs.«174376_j14001593385221_2_alg».proof.Proof.Gen.Kernel.Skeleton
import proofs.«174376_j14001593385221_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (where it is not
    fetched its block index has not moved), for any proof data over `V`'s arrays whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions -/

/-- "This is the first source block": the body's first conditional, from the grid coordinates. -/
abbrev cond1_0 (i : grid1.Coords) : Prop := (Scalar.cmpi .ne (Scalar.extui (Scalar.cmpi .eq (BitVec.ofNat 32 (i 1).val) 0#32)) 0#32) = 1#1
/-- It holds where the source block number is 0. -/
theorem hcond1_0 : ∀ t : Fin cfg1.N, cond1_0 (grid1.coords t) ↔ t.val % 8 = 0 :=
  (by decide +kernel : ∀ t : Fin grid1.N, cond1_0 (grid1.coords t) ↔ t.val % 8 = 0)

/-- "This is the last source block": the body's second conditional. -/
abbrev cond1_1 (i : grid1.Coords) : Prop := k1_cond2 i = 1#1
/-- It holds where the source block number is 7. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
/-- Before the last source block the body stores nothing into the output window, -/
theorem idleAt1_4 : ∀ t : Fin cfg1.N, ¬cond1_1 (grid1.coords t) → cfg1.idle 4 (grid1.coords t) = true := by decide +kernel
/-- and the pipeline does not write its block back there; -/
theorem noFlush1_4 : ∀ t : Fin cfg1.N, ¬cond1_1 (grid1.coords t) → (cfg1.win 4).flush t = false := by decide +kernel
/-- at the last source block it stores into it. -/
theorem liveAt1_4 : ∀ t : Fin cfg1.N, cond1_1 (grid1.coords t) → cfg1.idle 4 (grid1.coords t) = false := by decide +kernel

/-! ## The memrefs the body is called with -/

/-- One staging buffer of the output window, through which its contents are stated (the choice does not matter). -/
abbrev VO1_4 : View sig .tc .vmem S512x1024 .f32 := (Memref.whole cc1_stg4_0 : Memref sig .tc .vmem S512x1024 .f32).view
abbrev ms1_0 (t : Fin cfg1.N) : Memref sig .tc .vmem S512x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x1024 .f32 := win1_4.stage (cfg1.slots t 4)
abbrev hs1_4 (t : Fin cfg1.N) : (ms1_4 t).IsWhole := hstage1_4 ((cfg1.slots t 4).cast nbuf1_4)
/-- The accumulator: a whole scoped buffer of the kernel's own, passed beside the windows, -/
abbrev scM1 : Memref sig .tc .vmem S512x1024 .f32 := Memref.whole cc1_scratch0
/-- and as a view: what it holds is stated through it. -/
abbrev VS1 : View sig .tc .vmem S512x1024 .f32 := scM1.view

/-- The class invariant with the accumulator as a memref owned at some contents: the scoped buffers of the other
    region at anything, the accumulator at anything, the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1 fullShare d)) ∗ (∃ r, prngReg c r)) := by
  unfold Pipeline.ΦA; rw [scopedRest1_eq]; simp only [scM1, owns_whole]; try rfl

end Cert.Kernel.Hand

end
-- ==== Proof.Bits.R1RunA.lean ====
/-
  The second region's body at the FIRST source block of a row block (k = 0). It loads the staged source rows and the
  self weights, stores their product whole into the accumulator, then loads the two staged blocks and the accumulator
  and stores accumulator + product whole into the accumulator; it stores nothing into the output window. Stated on
  whole memrefs: the inputs at their contents, the output's buffer at contents handed back untouched, the accumulator
  at anything; the pieces the accumulator ends with are found by running the body.
-/
import proofs.«174376_j14001593385221_2_alg».proof.Proof.Bits.R1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_A (c : Dev nD) (i : grid1.Coords) (arg2 : Memref sig .tc .vmem S512x2048 .f32) (harg2 : arg2.IsWhole) (arg3 : Memref sig .tc .vmem S2048x1024 .bf16) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S512x1024 .f32) (harg6 : arg6.IsWhole) (arg7 : Memref sig .tc .vmem S512x1024 .f32) (harg7 : arg7.IsWhole) (hc0 : cond1_0 i) (hc1 : ¬cond1_1 i)
    (x0 : Vec F S512x2048 .f32) (x1 : Vec F S2048x1024 .bf16) (x2 : Vec F S512x1024 .f32) (x3 : Vec F S1024x1024 .bf16) :
    { LS : List (View.Piece (Elt F) S512x1024 .f32) //
      ∀ (xi4 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc1__sage_kernel i arg2 harg2 arg3 harg3 arg4 harg4 arg5 harg5 arg6 harg6 arg7 harg7) K } := by
  refine ⟨?_, fun xi4 E K => ?run⟩
  case run =>
    simp only [cc1__sage_kernel_eq_skeleton]; unfold cc1__sage_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.Kernel.Hand

end
-- ==== Proof.Bits.R1RunB.lean ====
/-
  The second region's body at a MIDDLE source block (0 < k < 7). It loads the two staged blocks and the accumulator
  and stores accumulator + product whole into the accumulator; nothing else is stored. Stated on whole memrefs: the
  inputs at their contents, the output's buffer at contents handed back untouched, the accumulator at the contents
  `xs` the point before left; the pieces the accumulator ends with are found by running the body.
-/
import proofs.«174376_j14001593385221_2_alg».proof.Proof.Bits.R1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_B (c : Dev nD) (i : grid1.Coords) (arg2 : Memref sig .tc .vmem S512x2048 .f32) (harg2 : arg2.IsWhole) (arg3 : Memref sig .tc .vmem S2048x1024 .bf16) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S512x1024 .f32) (harg6 : arg6.IsWhole) (arg7 : Memref sig .tc .vmem S512x1024 .f32) (harg7 : arg7.IsWhole) (hc0 : ¬cond1_0 i) (hc1 : ¬cond1_1 i)
    (x0 : Vec F S512x2048 .f32) (x1 : Vec F S2048x1024 .bf16) (x2 : Vec F S512x1024 .f32) (x3 : Vec F S1024x1024 .bf16) (xs : Vec F S512x1024 .f32) :
    { LS : List (View.Piece (Elt F) S512x1024 .f32) //
      ∀ (xi4 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc1__sage_kernel i arg2 harg2 arg3 harg3 arg4 harg4 arg5 harg5 arg6 harg6 arg7 harg7) K } := by
  refine ⟨?_, fun xi4 E K => ?run⟩
  case run =>
    simp only [cc1__sage_kernel_eq_skeleton]; unfold cc1__sage_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.Kernel.Hand

end
-- ==== Proof.Bits.R1RunC.lean ====
/-
  The second region's body at the LAST source block of a row block (k = 7). It loads the two staged blocks and the
  accumulator, stores accumulator + product whole into the accumulator, then loads the accumulator and stores it whole
  into the output window's staging buffer. Stated on whole memrefs: the inputs at their contents, the output's buffer
  at anything, the accumulator at the contents `xs` the point before left; the pieces the output's buffer and the
  accumulator end with are found by running the body.
-/
import proofs.«174376_j14001593385221_2_alg».proof.Proof.Bits.R1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_C (c : Dev nD) (i : grid1.Coords) (arg2 : Memref sig .tc .vmem S512x2048 .f32) (harg2 : arg2.IsWhole) (arg3 : Memref sig .tc .vmem S2048x1024 .bf16) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S512x1024 .f32) (harg6 : arg6.IsWhole) (arg7 : Memref sig .tc .vmem S512x1024 .f32) (harg7 : arg7.IsWhole) (hc0 : ¬cond1_0 i) (hc1 : cond1_1 i)
    (x0 : Vec F S512x2048 .f32) (x1 : Vec F S2048x1024 .bf16) (x2 : Vec F S512x1024 .f32) (x3 : Vec F S1024x1024 .bf16) (xs : Vec F S512x1024 .f32) :
    Σ' (L4 : List (View.Piece (Elt F) S512x1024 .f32)), { LS : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS)) -∗ K ⟨⟩))
          ⊢ wp frame (wpE (defs₀ (F := F)) Variants.none c none) E (cc1__sage_kernel i arg2 harg2 arg3 harg3 arg4 harg4 arg5 harg5 arg6 harg6 arg7 harg7) K } := by
  refine ⟨?_, ?_, fun E K => ?run⟩
  case run =>
    simp only [cc1__sage_kernel_eq_skeleton]; unfold cc1__sage_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.Kernel.Hand

end
-- ==== Proof.Bits.Region1.lean ====
/-
  The second kernel region: the accumulation over the 8 source blocks of a row block, point by point.

  What the accumulator holds after each point is defined by recursion on the point's number: at the first source block
  (k = 0) what that case's stores leave, from the point's blocks alone; afterwards what the case's stores leave over
  the contents the point before left. The output window's staging buffer is stored into at the last source block only
  (k = 7), with the accumulator's contents; at the other points it is idle — handed back untouched and not written back
  — and the value named for it there is a placeholder nothing consults. The region's invariant before a point is the
  scoped buffers of the other region at anything, the generator register at some state, and the accumulator at the
  contents the point before left (at anything before the first point). With these the body obligation holds at every
  point, case by case, and the invariant starts from and ends at the plain one that forgets the accumulator.
-/
import proofs.«174376_j14001593385221_2_alg».proof.Proof.Bits.R1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- At k = 0 the accumulator's pieces cover it. -/
theorem scover1_A (c : Dev nD) (i : grid1.Coords) (arg2 : Memref sig .tc .vmem S512x2048 .f32) (harg2 : arg2.IsWhole) (arg3 : Memref sig .tc .vmem S2048x1024 .bf16) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S512x1024 .f32) (harg6 : arg6.IsWhole) (arg7 : Memref sig .tc .vmem S512x1024 .f32) (harg7 : arg7.IsWhole) (hc0 : cond1_0 i) (hc1 : ¬cond1_1 i)
    (x0 : Vec F S512x2048 .f32) (x1 : Vec F S2048x1024 .bf16) (x2 : Vec F S512x1024 .f32) (x3 : Vec F S1024x1024 .bf16) (y : S512x1024.Idx) :
    ∃ pc ∈ (kernelRun1_A c i arg2 harg2 arg3 harg3 arg4 harg4 arg5 harg5 arg6 harg6 arg7 harg7 hc0 hc1 x0 x1 x2 x3).1, y ∈ pc.1.set :=
  View.cover_of_tiledL (kernelRun1_A c i arg2 harg2 arg3 harg3 arg4 harg4 arg5 harg5 arg6 harg6 arg7 harg7 hc0 hc1 x0 x1 x2 x3).1 S512x1024.size (by sl_kernel_rfl) y

/-- What the case k = 0 leaves in the accumulator: its pieces read back. -/
def sout1_A (c : Dev nD) (i : grid1.Coords) (arg2 : Memref sig .tc .vmem S512x2048 .f32) (harg2 : arg2.IsWhole) (arg3 : Memref sig .tc .vmem S2048x1024 .bf16) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S512x1024 .f32) (harg6 : arg6.IsWhole) (arg7 : Memref sig .tc .vmem S512x1024 .f32) (harg7 : arg7.IsWhole) (hc0 : cond1_0 i) (hc1 : ¬cond1_1 i)
    (x0 : Vec F S512x2048 .f32) (x1 : Vec F S2048x1024 .bf16) (x2 : Vec F S512x1024 .f32) (x3 : Vec F S1024x1024 .bf16) : Vec F S512x1024 .f32 :=
  VS1.read (Elt F) (VS1.writes (Elt F) VS1.junk (kernelRun1_A c i arg2 harg2 arg3 harg3 arg4 harg4 arg5 harg5 arg6 harg6 arg7 harg7 hc0 hc1 x0 x1 x2 x3).1)

/-- At 0 < k < 7 the accumulator's pieces cover it. -/
theorem scover1_B (c : Dev nD) (i : grid1.Coords) (arg2 : Memref sig .tc .vmem S512x2048 .f32) (harg2 : arg2.IsWhole) (arg3 : Memref sig .tc .vmem S2048x1024 .bf16) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S512x1024 .f32) (harg6 : arg6.IsWhole) (arg7 : Memref sig .tc .vmem S512x1024 .f32) (harg7 : arg7.IsWhole) (hc0 : ¬cond1_0 i) (hc1 : ¬cond1_1 i)
    (x0 : Vec F S512x2048 .f32) (x1 : Vec F S2048x1024 .bf16) (x2 : Vec F S512x1024 .f32) (x3 : Vec F S1024x1024 .bf16) (xs : Vec F S512x1024 .f32) (y : S512x1024.Idx) :
    ∃ pc ∈ (kernelRun1_B c i arg2 harg2 arg3 harg3 arg4 harg4 arg5 harg5 arg6 harg6 arg7 harg7 hc0 hc1 x0 x1 x2 x3 xs).1, y ∈ pc.1.set :=
  View.cover_of_tiledL (kernelRun1_B c i arg2 harg2 arg3 harg3 arg4 harg4 arg5 harg5 arg6 harg6 arg7 harg7 hc0 hc1 x0 x1 x2 x3 xs).1 S512x1024.size (by sl_kernel_rfl) y

/-- What the case 0 < k < 7 leaves in the accumulator, over the contents `xs` the point before left. -/
def sout1_B (c : Dev nD) (i : grid1.Coords) (arg2 : Memref sig .tc .vmem S512x2048 .f32) (harg2 : arg2.IsWhole) (arg3 : Memref sig .tc .vmem S2048x1024 .bf16) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S512x1024 .f32) (harg6 : arg6.IsWhole) (arg7 : Memref sig .tc .vmem S512x1024 .f32) (harg7 : arg7.IsWhole) (hc0 : ¬cond1_0 i) (hc1 : ¬cond1_1 i)
    (x0 : Vec F S512x2048 .f32) (x1 : Vec F S2048x1024 .bf16) (x2 : Vec F S512x1024 .f32) (x3 : Vec F S1024x1024 .bf16) (xs : Vec F S512x1024 .f32) : Vec F S512x1024 .f32 :=
  VS1.read (Elt F) (VS1.writes (Elt F) VS1.junk (kernelRun1_B c i arg2 harg2 arg3 harg3 arg4 harg4 arg5 harg5 arg6 harg6 arg7 harg7 hc0 hc1 x0 x1 x2 x3 xs).1)

/-- At k = 7 the output buffer's pieces cover it, -/
theorem cover1_C_4 (c : Dev nD) (i : grid1.Coords) (arg2 : Memref sig .tc .vmem S512x2048 .f32) (harg2 : arg2.IsWhole) (arg3 : Memref sig .tc .vmem S2048x1024 .bf16) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S512x1024 .f32) (harg6 : arg6.IsWhole) (arg7 : Memref sig .tc .vmem S512x1024 .f32) (harg7 : arg7.IsWhole) (hc0 : ¬cond1_0 i) (hc1 : cond1_1 i)
    (x0 : Vec F S512x2048 .f32) (x1 : Vec F S2048x1024 .bf16) (x2 : Vec F S512x1024 .f32) (x3 : Vec F S1024x1024 .bf16) (xs : Vec F S512x1024 .f32) (y : S512x1024.Idx) :
    ∃ pc ∈ (kernelRun1_C c i arg2 harg2 arg3 harg3 arg4 harg4 arg5 harg5 arg6 harg6 arg7 harg7 hc0 hc1 x0 x1 x2 x3 xs).1, y ∈ pc.1.set :=
  View.cover_of_tiledL (kernelRun1_C c i arg2 harg2 arg3 harg3 arg4 harg4 arg5 harg5 arg6 harg6 arg7 harg7 hc0 hc1 x0 x1 x2 x3 xs).1 S512x1024.size (by sl_kernel_rfl) y

/-- what the case k = 7 leaves in the output window's staging buffer, -/
def out1_C_4 (c : Dev nD) (i : grid1.Coords) (arg2 : Memref sig .tc .vmem S512x2048 .f32) (harg2 : arg2.IsWhole) (arg3 : Memref sig .tc .vmem S2048x1024 .bf16) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S512x1024 .f32) (harg6 : arg6.IsWhole) (arg7 : Memref sig .tc .vmem S512x1024 .f32) (harg7 : arg7.IsWhole) (hc0 : ¬cond1_0 i) (hc1 : cond1_1 i)
    (x0 : Vec F S512x2048 .f32) (x1 : Vec F S2048x1024 .bf16) (x2 : Vec F S512x1024 .f32) (x3 : Vec F S1024x1024 .bf16) (xs : Vec F S512x1024 .f32) : Vec F S512x1024 .f32 :=
  VO1_4.read (Elt F) (VO1_4.writes (Elt F) VO1_4.junk (kernelRun1_C c i arg2 harg2 arg3 harg3 arg4 harg4 arg5 harg5 arg6 harg6 arg7 harg7 hc0 hc1 x0 x1 x2 x3 xs).1)

/-- the accumulator's pieces cover it, -/
theorem scover1_C (c : Dev nD) (i : grid1.Coords) (arg2 : Memref sig .tc .vmem S512x2048 .f32) (harg2 : arg2.IsWhole) (arg3 : Memref sig .tc .vmem S2048x1024 .bf16) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S512x1024 .f32) (harg6 : arg6.IsWhole) (arg7 : Memref sig .tc .vmem S512x1024 .f32) (harg7 : arg7.IsWhole) (hc0 : ¬cond1_0 i) (hc1 : cond1_1 i)
    (x0 : Vec F S512x2048 .f32) (x1 : Vec F S2048x1024 .bf16) (x2 : Vec F S512x1024 .f32) (x3 : Vec F S1024x1024 .bf16) (xs : Vec F S512x1024 .f32) (y : S512x1024.Idx) :
    ∃ pc ∈ (kernelRun1_C c i arg2 harg2 arg3 harg3 arg4 harg4 arg5 harg5 arg6 harg6 arg7 harg7 hc0 hc1 x0 x1 x2 x3 xs).2.1, y ∈ pc.1.set :=
  View.cover_of_tiledL (kernelRun1_C c i arg2 harg2 arg3 harg3 arg4 harg4 arg5 harg5 arg6 harg6 arg7 harg7 hc0 hc1 x0 x1 x2 x3 xs).2.1 S512x1024.size (by sl_kernel_rfl) y

/-- and what the case k = 7 leaves in the accumulator. -/
def sout1_C (c : Dev nD) (i : grid1.Coords) (arg2 : Memref sig .tc .vmem S512x2048 .f32) (harg2 : arg2.IsWhole) (arg3 : Memref sig .tc .vmem S2048x1024 .bf16) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S512x1024 .f32) (harg6 : arg6.IsWhole) (arg7 : Memref sig .tc .vmem S512x1024 .f32) (harg7 : arg7.IsWhole) (hc0 : ¬cond1_0 i) (hc1 : cond1_1 i)
    (x0 : Vec F S512x2048 .f32) (x1 : Vec F S2048x1024 .bf16) (x2 : Vec F S512x1024 .f32) (x3 : Vec F S1024x1024 .bf16) (xs : Vec F S512x1024 .f32) : Vec F S512x1024 .f32 :=
  VS1.read (Elt F) (VS1.writes (Elt F) VS1.junk (kernelRun1_C c i arg2 harg2 arg3 harg3 arg4 harg4 arg5 harg5 arg6 harg6 arg7 harg7 hc0 hc1 x0 x1 x2 x3 xs).2.1)

/-! ## The cases at a point: its memrefs and its blocks -/

/-- The accumulator after a point with k = 0. -/
def sA (c : Dev nD) (t : Fin cfg1.N) (h0 : t.val % 8 = 0) (h1 : ¬t.val % 8 = 7) : Vec F S512x1024 .f32 :=
  sout1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (fun h => h1 ((hcond1_1 t).mp h)) (iblk1 V c 0 t) (iblk1 V c 1 t) (iblk1 V c 2 t) (iblk1 V c 3 t)
/-- The accumulator after a point with 0 < k < 7, over the contents `xs` the point before left. -/
def sB (c : Dev nD) (t : Fin cfg1.N) (h0 : ¬t.val % 8 = 0) (h1 : ¬t.val % 8 = 7) (xs : Vec F S512x1024 .f32) : Vec F S512x1024 .f32 :=
  sout1_B c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) (fun h => h1 ((hcond1_1 t).mp h)) (iblk1 V c 0 t) (iblk1 V c 1 t) (iblk1 V c 2 t) (iblk1 V c 3 t) xs
/-- The accumulator after a point with k = 7, -/
def sC (c : Dev nD) (t : Fin cfg1.N) (h0 : ¬t.val % 8 = 0) (h1 : t.val % 8 = 7) (xs : Vec F S512x1024 .f32) : Vec F S512x1024 .f32 :=
  sout1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) xs
/-- and the output window's staging buffer there. -/
def oC (c : Dev nD) (t : Fin cfg1.N) (h0 : ¬t.val % 8 = 0) (h1 : t.val % 8 = 7) (xs : Vec F S512x1024 .f32) : Vec F S512x1024 .f32 :=
  out1_C_4 c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) xs

/-! ## What the output's buffer and the accumulator hold after each point -/

/-- THE ACCUMULATION: after the body at position `n`, the pair (output window's staging buffer, accumulator). The first
    component is the stored copy at k = 7 and a placeholder (the accumulator again) where the window is idle. -/
def outsAt1 (c : Dev nD) : (n : ℕ) → n < cfg1.N → Vec F S512x1024 .f32 × Vec F S512x1024 .f32
  | 0, hn => (sA V c ⟨0, hn⟩ (Nat.zero_mod _) (by show ¬(0 % 8 = 7); decide), sA V c ⟨0, hn⟩ (Nat.zero_mod _) (by show ¬(0 % 8 = 7); decide))
  | n + 1, hn =>
    if h0 : (n + 1) % 8 = 0 then
      (sA V c ⟨n + 1, hn⟩ h0 (by show ¬((n + 1) % 8 = 7); omega), sA V c ⟨n + 1, hn⟩ h0 (by show ¬((n + 1) % 8 = 7); omega))
    else
      if h1 : (n + 1) % 8 = 7 then
        (oC V c ⟨n + 1, hn⟩ h0 h1 (outsAt1 c n (Nat.lt_of_succ_lt hn)).2, sC V c ⟨n + 1, hn⟩ h0 h1 (outsAt1 c n (Nat.lt_of_succ_lt hn)).2)
      else
        (sB V c ⟨n + 1, hn⟩ h0 h1 (outsAt1 c n (Nat.lt_of_succ_lt hn)).2, sB V c ⟨n + 1, hn⟩ h0 h1 (outsAt1 c n (Nat.lt_of_succ_lt hn)).2)

/-- The recursion at a point with k = 0, -/
theorem outsAt1_A (c : Dev nD) (t : Fin cfg1.N) (h0 : t.val % 8 = 0) (h1 : ¬t.val % 8 = 7) :
    outsAt1 V c t.val t.isLt = (sA V c t h0 h1, sA V c t h0 h1) := by
  obtain ⟨n, hn⟩ := t
  cases n with
  | zero => exact rfl
  | succ n => exact (dif_pos h0).trans rfl

/-- with 0 < k < 7, -/
theorem outsAt1_B (c : Dev nD) (t : Fin cfg1.N) (h0 : ¬t.val % 8 = 0) (h1 : ¬t.val % 8 = 7) :
    outsAt1 V c t.val t.isLt = (sB V c t h0 h1 (outsAt1 V c (t.val - 1) (Nat.lt_of_le_of_lt (Nat.sub_le _ _) t.isLt)).2,
      sB V c t h0 h1 (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

/-- and with k = 7. -/
theorem outsAt1_C (c : Dev nD) (t : Fin cfg1.N) (h0 : ¬t.val % 8 = 0) (h1 : t.val % 8 = 7) :
    outsAt1 V c t.val t.isLt = (oC V c t h0 h1 (outsAt1 V c (t.val - 1) (Nat.lt_of_le_of_lt (Nat.sub_le _ _) t.isLt)).2,
      sC V c t h0 h1 (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The region's invariant -/

/-- Before position `n`: before the first point the plain invariant (every scoped buffer no window stages at anything,
    the generator register at some state); afterwards the same with the accumulator at what the point before left. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1 fullShare ((outsAt1 V c n hn).2)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1 fullShare ((outsAt1 V c (n - 1) (by omega)).2)) ∗ (∃ r, prngReg c r)) := by
  cases n with
  | zero => exact absurd rfl hz
  | succ n => rfl

/-! ## The region's proof data -/

/-- The arrays as the region finds them; after the body at point `t` each input's buffer at its block and the output's
    at `outsAt1`'s first component; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' memrefs hold their blocks; the closed forms say which case the point is in; the
    invariant hands the body the accumulator at what the point before left (at anything before the first point) and
    takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  have hN : t.val < 128 := lt_of_lt_of_eq t.isLt (show cfg1.N = 128 from N_1)
  by_cases h0 : t.val % 8 = 0
  · have h1 : ¬t.val % 8 = 7 := by omega
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [show (dat1 V c).leavesExact 3 t = owns (c : Thread nD τ) (ms1_3 t) fullShare ((dat1 V c).after 3 t) from by
      unfold Dat.leavesExact; rw [liveAt1_3 t], after1_3]
    rw [Dat.leavesExact_idle (dat1 V c) 4 t (idleAt1_4 t (fun h => h1 ((hcond1_1 t).mp h))) (noFlush1_4 t (fun h => h1 ((hcond1_1 t).mp h)))]
    rw [outsAt1_A V c t h0 h1]
    unfold sA sout1_A; (try dsimp only)
    by_cases hz : t.val = 0
    · rw [PhiS_castSucc V c t, PhiS_zero V c _ _ hz, PhiA1_eq]
      iintro ⟨⟨⟨B0, B1, B2, B3, B4, HS⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [B0 B1 B2 B3 B4 HS Hg]
      · isplitl [B0 B1 B2 B3 B4 HS]
        · isplitl [B0]; · iexact B0
          isplitl [B1]; · iexact B1
          isplitl [B2]; · iexact B2
          isplitl [B3]; · iexact B3
          isplitl [B4]; · iexact B4
          unfold owns; iexists _; isplitr
          swap; · iexact HS
          ipureintro; exact View.read_writes_of_cover _ _ _ _ _ (scover1_A c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨⟨⟨B0, B1, B2, B3, B4, HS⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [B0 B1 B2 B3 B4 HS Hg]
      · isplitl [B0 B1 B2 B3 B4 HS]
        · isplitl [B0]; · iexact B0
          isplitl [B1]; · iexact B1
          isplitl [B2]; · iexact B2
          isplitl [B3]; · iexact B3
          isplitl [B4]; · iexact B4
          unfold owns; iexists _; isplitr
          swap; · iexact HS
          ipureintro; exact View.read_writes_of_cover _ _ _ _ _ (scover1_A c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 8 = 7
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t ((hcond1_1 t).mpr h1)], after1_4]
      rw [outsAt1_C V c t h0 h1]
      unfold oC sC out1_C_4 sout1_C; (try dsimp only)
      rw [PhiS_castSucc V c t, PhiS_pos V c _ _ hz]
      iintro ⟨⟨⟨B0, B1, B2, B3, B4, HS⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [B0 B1 B2 B3 B4 HS Hg]
      · isplitl [B0 B1 B2 B3 B4 HS]
        · isplitl [B0]; · iexact B0
          isplitl [B1]; · iexact B1
          isplitl [B2]; · iexact B2
          isplitl [B3]; · iexact B3
          isplitl [B4]; · iexact B4
          unfold owns; iexists _; isplitr
          swap; · iexact HS
          ipureintro; exact View.read_writes_of_cover _ _ _ _ _ (scover1_C c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C_4 c _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4 t (fun h => h1 ((hcond1_1 t).mp h))) (noFlush1_4 t (fun h => h1 ((hcond1_1 t).mp h)))]
      rw [outsAt1_B V c t h0 h1]
      unfold sB sout1_B; (try dsimp only)
      rw [PhiS_castSucc V c t, PhiS_pos V c _ _ hz]
      iintro ⟨⟨⟨B0, B1, B2, B3, B4, HS⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [B0 B1 B2 B3 B4 HS Hg]
      · isplitl [B0 B1 B2 B3 B4 HS]
        · isplitl [B0]; · iexact B0
          isplitl [B1]; · iexact B1
          isplitl [B2]; · iexact B2
          isplitl [B3]; · iexact B3
          isplitl [B4]; · iexact B4
          unfold owns; iexists _; isplitr
          swap; · iexact HS
          ipureintro; exact View.read_writes_of_cover _ _ _ _ _ (scover1_B c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant's two ends -/

/-- The plain invariant is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the plain one back: what the accumulator holds is forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨B0, B1, B2, B3, B4, HS⟩, Hg⟩
  isplitl [B0 B1 B2 B3 B4 HS]
  · isplitl [B0]; · iexact B0
    isplitl [B1]; · iexact B1
    isplitl [B2]; · iexact B2
    isplitl [B3]; · iexact B3
    isplitl [B4]; · iexact B4
    iexists _; iexact HS
  iexact Hg

theorem hout1 (c : Dev nD) : (dat1 V c).Φ (Fin.last cfg1.N) ⊢ Pipeline.ΦA spec1 c :=
  Phi_out1 V c _ (by rw [Fin.val_last]; have : cfg1.N = 128 := N_1; omega)

end Cert.Kernel.Hand

end
-- ==== Proof.Bits.Run.lean ====
/-
  The whole program's run: the host's four operations on the weights, then the two kernel regions.

  The contents of the unscoped buffers at each boundary are a fold from the launch memory: after the host stretch
  (`W1`), after the first region (`W2`: its arrays at what its write-backs leave, every other buffer as entered), after
  the second region (`W3`, likewise). Each region is a segment record over its own proof data, entered from the thread
  state "every unscoped buffer at the boundary's contents, the generator register at some state, nothing owed" and
  left at the next boundary's. The run theorem says every weakly fair execution from the launch memory with zero
  counters terminates, nothing faulting, with every unscoped buffer at `W3`; from it follow that the four argument
  arrays end as launched, and what the result array holds.
-/
import proofs.«174376_j14001593385221_2_alg».proof.Proof.Bits.Region0
import proofs.«174376_j14001593385221_2_alg».proof.Proof.Bits.Region1
import proofs.«174376_j14001593385221_2_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the host stretch: the first region's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At the second region's exit (it is entered from the first region's exit: no host operation lies between). -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The arguments end as launched -/

/-- The host stretch writes only the four transposed and converted weight arrays. -/
theorem W1_of (c : Dev nD) (r : Ref sig .tc) (h : r ∉ hostOps0_W) : W1 m c (Proc.devRef .tc r) = m ((c : Thread nD τ).loc r) :=
  Gen.V1_of m c r h

/-- `block`: read by the second region through an input window, bypassed by the first. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := (W3_arr m c 0).trans (((dat1 (V2 m) c).arrAt_in 0 rfl _).trans (A_eq1 (V2 m) c 0))
    _ = W1 m c (Proc.devRef .tc main_arg0) := W2_of_ne m c main_arg0 (by decide)
    _ = m ((c : Thread nD τ).loc main_arg0) := W1_of m c main_arg0 (by decide)

/-- `x`: read by both regions through input windows. -/
theorem W3_main_arg1 (c : Dev nD) : W3 m c (Proc.devRef .tc main_arg1) = m ((c : Thread nD τ).loc main_arg1) :=
  calc W3 m c (Proc.devRef .tc main_arg1)
    _ = W2 m c (Proc.devRef .tc main_arg1) := (W3_arr m c 2).trans (((dat1 (V2 m) c).arrAt_in 2 rfl _).trans (A_eq1 (V2 m) c 2))
    _ = W1 m c (Proc.devRef .tc main_arg1) := (W2_arr m c 0).trans (((dat0 (V1 m) c).arrAt_in 0 rfl _).trans (A_eq0 (V1 m) c 0))
    _ = m ((c : Thread nD τ).loc main_arg1) := W1_of m c main_arg1 (by decide)

/-- The two weight matrices: read by the host stretch only. -/
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = m ((c : Thread nD τ).loc main_arg2) := W1_of m c main_arg2 (by decide)
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = m ((c : Thread nD τ).loc main_arg3) := W1_of m c main_arg3 (by decide)

/-- The result array is the second region's output window's array. -/
theorem W3_main_v5 (c : Dev nD) : W3 m c (Proc.devRef .tc main_v5) = (dat1 (V2 m) c).arrAt 4 cfg1.N := W3_arr m c 4

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, at
    nothing. -/
abbrev R (c : Dev nD) : sProp 𝕄 := iprop((∃ r, prngReg c r) ∗ ∃ W, owes (c : Thread nD τ) (0 : CellTallies nD τ sig Unit) W)
/-- The host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W3 m c) ∗ ∃ r, prngReg c r)

/-! ## The regions as segments -/

-- a library lemma stated over the pinned configuration unifies with the printed one only when unification may unfold
-- plain definitions in a metavariable's type
set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show iprop((∃ r, prngReg c r) ∗ Pipeline.prefHeld (pcfgs (F := F) 1).pre c (fun _ => fullShare) (adm 1).1 ∗ Pipeline.scopedRest (Pipeline.pin (pcfgs (F := F)) adm 1).spec c) ⊢ (Pipeline.ΦA spec1 c : sProp 𝕄) from ?_).trans (hin1 (V2 m) c)
    unfold Pipeline.ΦA
    iintro ⟨Hp, -, Hr⟩
    isplitl [Hr]; · iexact Hr
    iexact Hp
  hout c := by
    rw [Pipeline.ownSems0_none]
    refine (hout1 (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting,
    and the final memory holds every unscoped buffer at the last boundary's contents; any post that follows from
    that holds. -/
theorem run_all {Q : PUnit × MemSt nD τ sig (Elt F) → Prop}
    (hQ : ∀ s : MemSt nD τ sig (Elt F), (∀ c : Dev nD, ∀ b ∈ Pipeline.ucRefs τ sig, s.mem (((c : Thread nD τ)).1, b) = W3 m c b) → Q (⟨⟩, s)) :
    θ_run defs (onTc (τ := τ) (main (F := F))) ⟨m, fun _ => 0, ρ⟩ Q :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := hQ)

/-- THE FRAME: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_all m ρ fun s h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c)⟩

/-- THE RUN WITH THE RESULT: besides the frame, the result array ends at what the second region's write-backs leave. -/
theorem run_result : θ_run defs (onTc (τ := τ) (main (F := F))) ⟨m, fun _ => 0, ρ⟩ (fun r => ∀ c : Dev nD,
      r.2.mem ((c.tc : Thread nD τ).loc main_v5) = (dat1 (V2 m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_all m ρ fun s h c =>
    ⟨(h c _ (mem_uc main_v5 (by decide))).trans (W3_main_v5 m c),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c)⟩

end Cert.Kernel.Hand

end
-- ==== Proof.Ideal.Region0.lean ====
/-
  The first kernel region: the projection of every source row by the neighbour weights.

  The region walks 8 grid points; point t stages rows 2048·t … 2048·t + 2047 of the source array (window 0), the whole
  transposed weight matrix (window 1, fetched once), and writes back the same rows of the projected array (window 2).
  At a point the body loads the two input blocks whole, multiplies them into a zero accumulator and stores the product
  whole into the output's staging buffer; nothing is carried from one point to the next. This module states, for any
  float instance and any contents `V` of the buffers when the region is entered: each window's block at a point, what
  the body leaves in the output's buffer as a function of the two input blocks, the body's triple, the region's proof
  data, and the body obligation at every point.
-/
import proofs.«174376_j14001593385221_2_alg».proof.Proof.Gen.KernelIdeal.Launch
import proofs.«174376_j14001593385221_2_alg».proof.Proof.Gen.KernelIdeal.Skeleton
import proofs.«174376_j14001593385221_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (where it is not
    fetched its block index has not moved), for any proof data over `V`'s arrays whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rX0 : Rect S2048x1024 := Rect.unit (s := S2048x1024) ![0, 0] S2048x1024.size inb_S2048x1024_S2048x1024_0_0
abbrev rW0 : Rect S1024x1024 := Rect.unit (s := S1024x1024) ![0, 0] S1024x1024.size inb_S1024x1024_S1024x1024_0_0

/-! ## What the body leaves in the output window's buffer -/

/-- The output's staging buffer after the body: its one whole store, the product of the two input blocks. -/
def out0_2 (x0 : Vec F S2048x1024 .f32) (x1 : Vec F S1024x1024 .bf16) : Vec F S2048x1024 .bf16 :=
  View.canon [⟨rX0, k0_pay1 (View.ld x0 rX0) (View.ld x1 rW0)⟩]

/-- The one store covers the buffer. -/
theorem cover0_2 (p0 : Vec F S2048x1024 .bf16) (y : S2048x1024.Idx) :
    ∃ pc ∈ ([⟨rX0, p0⟩] : List (View.Piece (Elt F) S2048x1024 .bf16)), y ∈ pc.1.set :=
  View.cover_of_tiled [⟨rX0, p0⟩] S2048x1024.size (by rfl) y

/-! ## The body's triple -/

set_option maxHeartbeats 1000000 in
/-- On whole staging memrefs, the inputs' at contents `x0`, `x1` and the output's at anything, the body runs to the
    continuation holding the inputs' as they were and the output's at `out0_2 x0 x1`. -/
theorem sound_kernel0 (c : Dev nD) (E : Set ℕ) (i : grid0.Coords) (arg1 : Memref sig .tc .vmem S2048x1024 .f32) (harg1 : arg1.IsWhole)
    (arg2 : Memref sig .tc .vmem S1024x1024 .bf16) (harg2 : arg2.IsWhole) (arg3 : Memref sig .tc .vmem S2048x1024 .bf16) (harg3 : arg3.IsWhole)
    (x0 : Vec F S2048x1024 .f32) (x1 : Vec F S1024x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__xw_kernel i arg1 harg1 arg2 harg2 arg3 harg3) K := by
  simp only [cc0__xw_kernel_eq_skeleton]; unfold cc0__xw_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The region's proof data -/

/-- The arrays as the region finds them; after the body at point `t` each input's buffer at its block and the output's
    at the product of the two blocks; the invariant the scoped rest and the generator register, untouched; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Ideal.R1Base.lean ====
/-
  The second kernel region, what its three cases share.

  The region walks a 16 × 8 grid, the second coordinate `k` innermost: point t has row block t / 8 and source block
  k = t % 8. It stages a 512 × 2048 block of `block` (window 0), 2048 rows of the projected array (window 1), 512 rows of
  the source array (window 2, refetched when the row block changes), the transposed self weights (window 3, fetched
  once) and writes back 512 rows of the result (window 4) at the last source block only. A scratch accumulator of one
  output block is carried from point to point. The body has two conditionals on `k`: at k = 0 it first sets the
  accumulator to the self product; at every point it adds the product of the two staged blocks; at k = 7 it copies the
  accumulator to the output's staging buffer. So three cases occur: k = 0, 0 < k < 7, k = 7.

  Here: each window's block at a point, the input windows' buffers holding their blocks at every point, the two
  conditions in closed form over the grid, where the output window is idle and where it is written back, and the names
  of the memrefs the body is called with.
-/
import proofs.«174376_j14001593385221_2_alg».proof.Proof.Gen.KernelIdeal.Launch
import proofs.«174376_j14001593385221_2_alg».proof.Proof.Gen.KernelIdeal.Skeleton
import proofs.«174376_j14001593385221_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (where it is not
    fetched its block index has not moved), for any proof data over `V`'s arrays whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions -/

/-- "This is the first source block": the body's first conditional, from the grid coordinates. -/
abbrev cond1_0 (i : grid1.Coords) : Prop := (Scalar.cmpi .ne (Scalar.extui (Scalar.cmpi .eq (BitVec.ofNat 32 (i 1).val) 0#32)) 0#32) = 1#1
/-- It holds where the source block number is 0. -/
theorem hcond1_0 : ∀ t : Fin cfg1.N, cond1_0 (grid1.coords t) ↔ t.val % 8 = 0 :=
  (by decide +kernel : ∀ t : Fin grid1.N, cond1_0 (grid1.coords t) ↔ t.val % 8 = 0)

/-- "This is the last source block": the body's second conditional. -/
abbrev cond1_1 (i : grid1.Coords) : Prop := k1_cond2 i = 1#1
/-- It holds where the source block number is 7. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
/-- Before the last source block the body stores nothing into the output window, -/
theorem idleAt1_4 : ∀ t : Fin cfg1.N, ¬cond1_1 (grid1.coords t) → cfg1.idle 4 (grid1.coords t) = true := by decide +kernel
/-- and the pipeline does not write its block back there; -/
theorem noFlush1_4 : ∀ t : Fin cfg1.N, ¬cond1_1 (grid1.coords t) → (cfg1.win 4).flush t = false := by decide +kernel
/-- at the last source block it stores into it. -/
theorem liveAt1_4 : ∀ t : Fin cfg1.N, cond1_1 (grid1.coords t) → cfg1.idle 4 (grid1.coords t) = false := by decide +kernel

/-! ## The memrefs the body is called with -/

/-- One staging buffer of the output window, through which its contents are stated (the choice does not matter). -/
abbrev VO1_4 : View sig .tc .vmem S512x1024 .f32 := (Memref.whole cc1_stg4_0 : Memref sig .tc .vmem S512x1024 .f32).view
abbrev ms1_0 (t : Fin cfg1.N) : Memref sig .tc .vmem S512x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x1024 .f32 := win1_4.stage (cfg1.slots t 4)
abbrev hs1_4 (t : Fin cfg1.N) : (ms1_4 t).IsWhole := hstage1_4 ((cfg1.slots t 4).cast nbuf1_4)
/-- The accumulator: a whole scoped buffer of the kernel's own, passed beside the windows, -/
abbrev scM1 : Memref sig .tc .vmem S512x1024 .f32 := Memref.whole cc1_scratch0
/-- and as a view: what it holds is stated through it. -/
abbrev VS1 : View sig .tc .vmem S512x1024 .f32 := scM1.view

/-- The class invariant with the accumulator as a memref owned at some contents: the scoped buffers of the other
    region at anything, the accumulator at anything, the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1 fullShare d)) ∗ (∃ r, prngReg c r)) := by
  unfold Pipeline.ΦA; rw [scopedRest1_eq]; simp only [scM1, owns_whole]; try rfl

end Cert.KernelIdeal.Hand

end
-- ==== Proof.Ideal.R1RunA.lean ====
/-
  The second region's body at the FIRST source block of a row block (k = 0). It loads the staged source rows and the
  self weights, stores their product whole into the accumulator, then loads the two staged blocks and the accumulator
  and stores accumulator + product whole into the accumulator; it stores nothing into the output window. Stated on
  whole memrefs: the inputs at their contents, the output's buffer at contents handed back untouched, the accumulator
  at anything; the pieces the accumulator ends with are found by running the body.
-/
import proofs.«174376_j14001593385221_2_alg».proof.Proof.Ideal.R1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_A (c : Dev nD) (i : grid1.Coords) (arg2 : Memref sig .tc .vmem S512x2048 .f32) (harg2 : arg2.IsWhole) (arg3 : Memref sig .tc .vmem S2048x1024 .bf16) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S512x1024 .f32) (harg6 : arg6.IsWhole) (arg7 : Memref sig .tc .vmem S512x1024 .f32) (harg7 : arg7.IsWhole) (hc0 : cond1_0 i) (hc1 : ¬cond1_1 i)
    (x0 : Vec F S512x2048 .f32) (x1 : Vec F S2048x1024 .bf16) (x2 : Vec F S512x1024 .f32) (x3 : Vec F S1024x1024 .bf16) :
    { LS : List (View.Piece (Elt F) S512x1024 .f32) //
      ∀ (xi4 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc1__sage_kernel i arg2 harg2 arg3 harg3 arg4 harg4 arg5 harg5 arg6 harg6 arg7 harg7) K } := by
  refine ⟨?_, fun xi4 E K => ?run⟩
  case run =>
    simp only [cc1__sage_kernel_eq_skeleton]; unfold cc1__sage_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.KernelIdeal.Hand

end
-- ==== Proof.Ideal.R1RunB.lean ====
/-
  The second region's body at a MIDDLE source block (0 < k < 7). It loads the two staged blocks and the accumulator
  and stores accumulator + product whole into the accumulator; nothing else is stored. Stated on whole memrefs: the
  inputs at their contents, the output's buffer at contents handed back untouched, the accumulator at the contents
  `xs` the point before left; the pieces the accumulator ends with are found by running the body.
-/
import proofs.«174376_j14001593385221_2_alg».proof.Proof.Ideal.R1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_B (c : Dev nD) (i : grid1.Coords) (arg2 : Memref sig .tc .vmem S512x2048 .f32) (harg2 : arg2.IsWhole) (arg3 : Memref sig .tc .vmem S2048x1024 .bf16) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S512x1024 .f32) (harg6 : arg6.IsWhole) (arg7 : Memref sig .tc .vmem S512x1024 .f32) (harg7 : arg7.IsWhole) (hc0 : ¬cond1_0 i) (hc1 : ¬cond1_1 i)
    (x0 : Vec F S512x2048 .f32) (x1 : Vec F S2048x1024 .bf16) (x2 : Vec F S512x1024 .f32) (x3 : Vec F S1024x1024 .bf16) (xs : Vec F S512x1024 .f32) :
    { LS : List (View.Piece (Elt F) S512x1024 .f32) //
      ∀ (xi4 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc1__sage_kernel i arg2 harg2 arg3 harg3 arg4 harg4 arg5 harg5 arg6 harg6 arg7 harg7) K } := by
  refine ⟨?_, fun xi4 E K => ?run⟩
  case run =>
    simp only [cc1__sage_kernel_eq_skeleton]; unfold cc1__sage_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.KernelIdeal.Hand

end
-- ==== Proof.Ideal.R1RunC.lean ====
/-
  The second region's body at the LAST source block of a row block (k = 7). It loads the two staged blocks and the
  accumulator, stores accumulator + product whole into the accumulator, then loads the accumulator and stores it whole
  into the output window's staging buffer. Stated on whole memrefs: the inputs at their contents, the output's buffer
  at anything, the accumulator at the contents `xs` the point before left; the pieces the output's buffer and the
  accumulator end with are found by running the body.
-/
import proofs.«174376_j14001593385221_2_alg».proof.Proof.Ideal.R1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_C (c : Dev nD) (i : grid1.Coords) (arg2 : Memref sig .tc .vmem S512x2048 .f32) (harg2 : arg2.IsWhole) (arg3 : Memref sig .tc .vmem S2048x1024 .bf16) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S512x1024 .f32) (harg6 : arg6.IsWhole) (arg7 : Memref sig .tc .vmem S512x1024 .f32) (harg7 : arg7.IsWhole) (hc0 : ¬cond1_0 i) (hc1 : cond1_1 i)
    (x0 : Vec F S512x2048 .f32) (x1 : Vec F S2048x1024 .bf16) (x2 : Vec F S512x1024 .f32) (x3 : Vec F S1024x1024 .bf16) (xs : Vec F S512x1024 .f32) :
    Σ' (L4 : List (View.Piece (Elt F) S512x1024 .f32)), { LS : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS)) -∗ K ⟨⟩))
          ⊢ wp frame (wpE (defs₀ (F := F)) Variants.none c none) E (cc1__sage_kernel i arg2 harg2 arg3 harg3 arg4 harg4 arg5 harg5 arg6 harg6 arg7 harg7) K } := by
  refine ⟨?_, ?_, fun E K => ?run⟩
  case run =>
    simp only [cc1__sage_kernel_eq_skeleton]; unfold cc1__sage_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.KernelIdeal.Hand

end
-- ==== Proof.Ideal.Region1.lean ====
/-
  The second kernel region: the accumulation over the 8 source blocks of a row block, point by point.

  What the accumulator holds after each point is defined by recursion on the point's number: at the first source block
  (k = 0) what that case's stores leave, from the point's blocks alone; afterwards what the case's stores leave over
  the contents the point before left. The output window's staging buffer is stored into at the last source block only
  (k = 7), with the accumulator's contents; at the other points it is idle — handed back untouched and not written back
  — and the value named for it there is a placeholder nothing consults. The region's invariant before a point is the
  scoped buffers of the other region at anything, the generator register at some state, and the accumulator at the
  contents the point before left (at anything before the first point). With these the body obligation holds at every
  point, case by case, and the invariant starts from and ends at the plain one that forgets the accumulator.
-/
import proofs.«174376_j14001593385221_2_alg».proof.Proof.Ideal.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- At k = 0 the accumulator's pieces cover it. -/
theorem scover1_A (c : Dev nD) (i : grid1.Coords) (arg2 : Memref sig .tc .vmem S512x2048 .f32) (harg2 : arg2.IsWhole) (arg3 : Memref sig .tc .vmem S2048x1024 .bf16) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S512x1024 .f32) (harg6 : arg6.IsWhole) (arg7 : Memref sig .tc .vmem S512x1024 .f32) (harg7 : arg7.IsWhole) (hc0 : cond1_0 i) (hc1 : ¬cond1_1 i)
    (x0 : Vec F S512x2048 .f32) (x1 : Vec F S2048x1024 .bf16) (x2 : Vec F S512x1024 .f32) (x3 : Vec F S1024x1024 .bf16) (y : S512x1024.Idx) :
    ∃ pc ∈ (kernelRun1_A c i arg2 harg2 arg3 harg3 arg4 harg4 arg5 harg5 arg6 harg6 arg7 harg7 hc0 hc1 x0 x1 x2 x3).1, y ∈ pc.1.set :=
  View.cover_of_tiledL (kernelRun1_A c i arg2 harg2 arg3 harg3 arg4 harg4 arg5 harg5 arg6 harg6 arg7 harg7 hc0 hc1 x0 x1 x2 x3).1 S512x1024.size (by sl_kernel_rfl) y

/-- What the case k = 0 leaves in the accumulator: its pieces read back. -/
def sout1_A (c : Dev nD) (i : grid1.Coords) (arg2 : Memref sig .tc .vmem S512x2048 .f32) (harg2 : arg2.IsWhole) (arg3 : Memref sig .tc .vmem S2048x1024 .bf16) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S512x1024 .f32) (harg6 : arg6.IsWhole) (arg7 : Memref sig .tc .vmem S512x1024 .f32) (harg7 : arg7.IsWhole) (hc0 : cond1_0 i) (hc1 : ¬cond1_1 i)
    (x0 : Vec F S512x2048 .f32) (x1 : Vec F S2048x1024 .bf16) (x2 : Vec F S512x1024 .f32) (x3 : Vec F S1024x1024 .bf16) : Vec F S512x1024 .f32 :=
  VS1.read (Elt F) (VS1.writes (Elt F) VS1.junk (kernelRun1_A c i arg2 harg2 arg3 harg3 arg4 harg4 arg5 harg5 arg6 harg6 arg7 harg7 hc0 hc1 x0 x1 x2 x3).1)

/-- At 0 < k < 7 the accumulator's pieces cover it. -/
theorem scover1_B (c : Dev nD) (i : grid1.Coords) (arg2 : Memref sig .tc .vmem S512x2048 .f32) (harg2 : arg2.IsWhole) (arg3 : Memref sig .tc .vmem S2048x1024 .bf16) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S512x1024 .f32) (harg6 : arg6.IsWhole) (arg7 : Memref sig .tc .vmem S512x1024 .f32) (harg7 : arg7.IsWhole) (hc0 : ¬cond1_0 i) (hc1 : ¬cond1_1 i)
    (x0 : Vec F S512x2048 .f32) (x1 : Vec F S2048x1024 .bf16) (x2 : Vec F S512x1024 .f32) (x3 : Vec F S1024x1024 .bf16) (xs : Vec F S512x1024 .f32) (y : S512x1024.Idx) :
    ∃ pc ∈ (kernelRun1_B c i arg2 harg2 arg3 harg3 arg4 harg4 arg5 harg5 arg6 harg6 arg7 harg7 hc0 hc1 x0 x1 x2 x3 xs).1, y ∈ pc.1.set :=
  View.cover_of_tiledL (kernelRun1_B c i arg2 harg2 arg3 harg3 arg4 harg4 arg5 harg5 arg6 harg6 arg7 harg7 hc0 hc1 x0 x1 x2 x3 xs).1 S512x1024.size (by sl_kernel_rfl) y

/-- What the case 0 < k < 7 leaves in the accumulator, over the contents `xs` the point before left. -/
def sout1_B (c : Dev nD) (i : grid1.Coords) (arg2 : Memref sig .tc .vmem S512x2048 .f32) (harg2 : arg2.IsWhole) (arg3 : Memref sig .tc .vmem S2048x1024 .bf16) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S512x1024 .f32) (harg6 : arg6.IsWhole) (arg7 : Memref sig .tc .vmem S512x1024 .f32) (harg7 : arg7.IsWhole) (hc0 : ¬cond1_0 i) (hc1 : ¬cond1_1 i)
    (x0 : Vec F S512x2048 .f32) (x1 : Vec F S2048x1024 .bf16) (x2 : Vec F S512x1024 .f32) (x3 : Vec F S1024x1024 .bf16) (xs : Vec F S512x1024 .f32) : Vec F S512x1024 .f32 :=
  VS1.read (Elt F) (VS1.writes (Elt F) VS1.junk (kernelRun1_B c i arg2 harg2 arg3 harg3 arg4 harg4 arg5 harg5 arg6 harg6 arg7 harg7 hc0 hc1 x0 x1 x2 x3 xs).1)

/-- At k = 7 the output buffer's pieces cover it, -/
theorem cover1_C_4 (c : Dev nD) (i : grid1.Coords) (arg2 : Memref sig .tc .vmem S512x2048 .f32) (harg2 : arg2.IsWhole) (arg3 : Memref sig .tc .vmem S2048x1024 .bf16) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S512x1024 .f32) (harg6 : arg6.IsWhole) (arg7 : Memref sig .tc .vmem S512x1024 .f32) (harg7 : arg7.IsWhole) (hc0 : ¬cond1_0 i) (hc1 : cond1_1 i)
    (x0 : Vec F S512x2048 .f32) (x1 : Vec F S2048x1024 .bf16) (x2 : Vec F S512x1024 .f32) (x3 : Vec F S1024x1024 .bf16) (xs : Vec F S512x1024 .f32) (y : S512x1024.Idx) :
    ∃ pc ∈ (kernelRun1_C c i arg2 harg2 arg3 harg3 arg4 harg4 arg5 harg5 arg6 harg6 arg7 harg7 hc0 hc1 x0 x1 x2 x3 xs).1, y ∈ pc.1.set :=
  View.cover_of_tiledL (kernelRun1_C c i arg2 harg2 arg3 harg3 arg4 harg4 arg5 harg5 arg6 harg6 arg7 harg7 hc0 hc1 x0 x1 x2 x3 xs).1 S512x1024.size (by sl_kernel_rfl) y

/-- what the case k = 7 leaves in the output window's staging buffer, -/
def out1_C_4 (c : Dev nD) (i : grid1.Coords) (arg2 : Memref sig .tc .vmem S512x2048 .f32) (harg2 : arg2.IsWhole) (arg3 : Memref sig .tc .vmem S2048x1024 .bf16) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S512x1024 .f32) (harg6 : arg6.IsWhole) (arg7 : Memref sig .tc .vmem S512x1024 .f32) (harg7 : arg7.IsWhole) (hc0 : ¬cond1_0 i) (hc1 : cond1_1 i)
    (x0 : Vec F S512x2048 .f32) (x1 : Vec F S2048x1024 .bf16) (x2 : Vec F S512x1024 .f32) (x3 : Vec F S1024x1024 .bf16) (xs : Vec F S512x1024 .f32) : Vec F S512x1024 .f32 :=
  VO1_4.read (Elt F) (VO1_4.writes (Elt F) VO1_4.junk (kernelRun1_C c i arg2 harg2 arg3 harg3 arg4 harg4 arg5 harg5 arg6 harg6 arg7 harg7 hc0 hc1 x0 x1 x2 x3 xs).1)

/-- the accumulator's pieces cover it, -/
theorem scover1_C (c : Dev nD) (i : grid1.Coords) (arg2 : Memref sig .tc .vmem S512x2048 .f32) (harg2 : arg2.IsWhole) (arg3 : Memref sig .tc .vmem S2048x1024 .bf16) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S512x1024 .f32) (harg6 : arg6.IsWhole) (arg7 : Memref sig .tc .vmem S512x1024 .f32) (harg7 : arg7.IsWhole) (hc0 : ¬cond1_0 i) (hc1 : cond1_1 i)
    (x0 : Vec F S512x2048 .f32) (x1 : Vec F S2048x1024 .bf16) (x2 : Vec F S512x1024 .f32) (x3 : Vec F S1024x1024 .bf16) (xs : Vec F S512x1024 .f32) (y : S512x1024.Idx) :
    ∃ pc ∈ (kernelRun1_C c i arg2 harg2 arg3 harg3 arg4 harg4 arg5 harg5 arg6 harg6 arg7 harg7 hc0 hc1 x0 x1 x2 x3 xs).2.1, y ∈ pc.1.set :=
  View.cover_of_tiledL (kernelRun1_C c i arg2 harg2 arg3 harg3 arg4 harg4 arg5 harg5 arg6 harg6 arg7 harg7 hc0 hc1 x0 x1 x2 x3 xs).2.1 S512x1024.size (by sl_kernel_rfl) y

/-- and what the case k = 7 leaves in the accumulator. -/
def sout1_C (c : Dev nD) (i : grid1.Coords) (arg2 : Memref sig .tc .vmem S512x2048 .f32) (harg2 : arg2.IsWhole) (arg3 : Memref sig .tc .vmem S2048x1024 .bf16) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S512x1024 .f32) (harg6 : arg6.IsWhole) (arg7 : Memref sig .tc .vmem S512x1024 .f32) (harg7 : arg7.IsWhole) (hc0 : ¬cond1_0 i) (hc1 : cond1_1 i)
    (x0 : Vec F S512x2048 .f32) (x1 : Vec F S2048x1024 .bf16) (x2 : Vec F S512x1024 .f32) (x3 : Vec F S1024x1024 .bf16) (xs : Vec F S512x1024 .f32) : Vec F S512x1024 .f32 :=
  VS1.read (Elt F) (VS1.writes (Elt F) VS1.junk (kernelRun1_C c i arg2 harg2 arg3 harg3 arg4 harg4 arg5 harg5 arg6 harg6 arg7 harg7 hc0 hc1 x0 x1 x2 x3 xs).2.1)

/-! ## The cases at a point: its memrefs and its blocks -/

/-- The accumulator after a point with k = 0. -/
def sA (c : Dev nD) (t : Fin cfg1.N) (h0 : t.val % 8 = 0) (h1 : ¬t.val % 8 = 7) : Vec F S512x1024 .f32 :=
  sout1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (fun h => h1 ((hcond1_1 t).mp h)) (iblk1 V c 0 t) (iblk1 V c 1 t) (iblk1 V c 2 t) (iblk1 V c 3 t)
/-- The accumulator after a point with 0 < k < 7, over the contents `xs` the point before left. -/
def sB (c : Dev nD) (t : Fin cfg1.N) (h0 : ¬t.val % 8 = 0) (h1 : ¬t.val % 8 = 7) (xs : Vec F S512x1024 .f32) : Vec F S512x1024 .f32 :=
  sout1_B c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) (fun h => h1 ((hcond1_1 t).mp h)) (iblk1 V c 0 t) (iblk1 V c 1 t) (iblk1 V c 2 t) (iblk1 V c 3 t) xs
/-- The accumulator after a point with k = 7, -/
def sC (c : Dev nD) (t : Fin cfg1.N) (h0 : ¬t.val % 8 = 0) (h1 : t.val % 8 = 7) (xs : Vec F S512x1024 .f32) : Vec F S512x1024 .f32 :=
  sout1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) xs
/-- and the output window's staging buffer there. -/
def oC (c : Dev nD) (t : Fin cfg1.N) (h0 : ¬t.val % 8 = 0) (h1 : t.val % 8 = 7) (xs : Vec F S512x1024 .f32) : Vec F S512x1024 .f32 :=
  out1_C_4 c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) xs

/-! ## What the output's buffer and the accumulator hold after each point -/

/-- THE ACCUMULATION: after the body at position `n`, the pair (output window's staging buffer, accumulator). The first
    component is the stored copy at k = 7 and a placeholder (the accumulator again) where the window is idle. -/
def outsAt1 (c : Dev nD) : (n : ℕ) → n < cfg1.N → Vec F S512x1024 .f32 × Vec F S512x1024 .f32
  | 0, hn => (sA V c ⟨0, hn⟩ (Nat.zero_mod _) (by show ¬(0 % 8 = 7); decide), sA V c ⟨0, hn⟩ (Nat.zero_mod _) (by show ¬(0 % 8 = 7); decide))
  | n + 1, hn =>
    if h0 : (n + 1) % 8 = 0 then
      (sA V c ⟨n + 1, hn⟩ h0 (by show ¬((n + 1) % 8 = 7); omega), sA V c ⟨n + 1, hn⟩ h0 (by show ¬((n + 1) % 8 = 7); omega))
    else
      if h1 : (n + 1) % 8 = 7 then
        (oC V c ⟨n + 1, hn⟩ h0 h1 (outsAt1 c n (Nat.lt_of_succ_lt hn)).2, sC V c ⟨n + 1, hn⟩ h0 h1 (outsAt1 c n (Nat.lt_of_succ_lt hn)).2)
      else
        (sB V c ⟨n + 1, hn⟩ h0 h1 (outsAt1 c n (Nat.lt_of_succ_lt hn)).2, sB V c ⟨n + 1, hn⟩ h0 h1 (outsAt1 c n (Nat.lt_of_succ_lt hn)).2)

/-- The recursion at a point with k = 0, -/
theorem outsAt1_A (c : Dev nD) (t : Fin cfg1.N) (h0 : t.val % 8 = 0) (h1 : ¬t.val % 8 = 7) :
    outsAt1 V c t.val t.isLt = (sA V c t h0 h1, sA V c t h0 h1) := by
  obtain ⟨n, hn⟩ := t
  cases n with
  | zero => exact rfl
  | succ n => exact (dif_pos h0).trans rfl

/-- with 0 < k < 7, -/
theorem outsAt1_B (c : Dev nD) (t : Fin cfg1.N) (h0 : ¬t.val % 8 = 0) (h1 : ¬t.val % 8 = 7) :
    outsAt1 V c t.val t.isLt = (sB V c t h0 h1 (outsAt1 V c (t.val - 1) (Nat.lt_of_le_of_lt (Nat.sub_le _ _) t.isLt)).2,
      sB V c t h0 h1 (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

/-- and with k = 7. -/
theorem outsAt1_C (c : Dev nD) (t : Fin cfg1.N) (h0 : ¬t.val % 8 = 0) (h1 : t.val % 8 = 7) :
    outsAt1 V c t.val t.isLt = (oC V c t h0 h1 (outsAt1 V c (t.val - 1) (Nat.lt_of_le_of_lt (Nat.sub_le _ _) t.isLt)).2,
      sC V c t h0 h1 (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The region's invariant -/

/-- Before position `n`: before the first point the plain invariant (every scoped buffer no window stages at anything,
    the generator register at some state); afterwards the same with the accumulator at what the point before left. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1 fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1 fullShare ((outsAt1 V c n hn).2)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1 fullShare ((outsAt1 V c (n - 1) (by omega)).2)) ∗ (∃ r, prngReg c r)) := by
  cases n with
  | zero => exact absurd rfl hz
  | succ n => rfl

/-! ## The region's proof data -/

/-- The arrays as the region finds them; after the body at point `t` each input's buffer at its block and the output's
    at `outsAt1`'s first component; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' memrefs hold their blocks; the closed forms say which case the point is in; the
    invariant hands the body the accumulator at what the point before left (at anything before the first point) and
    takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  have hN : t.val < 128 := lt_of_lt_of_eq t.isLt (show cfg1.N = 128 from N_1)
  by_cases h0 : t.val % 8 = 0
  · have h1 : ¬t.val % 8 = 7 := by omega
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [show (dat1 V c).leavesExact 3 t = owns (c : Thread nD τ) (ms1_3 t) fullShare ((dat1 V c).after 3 t) from by
      unfold Dat.leavesExact; rw [liveAt1_3 t], after1_3]
    rw [Dat.leavesExact_idle (dat1 V c) 4 t (idleAt1_4 t (fun h => h1 ((hcond1_1 t).mp h))) (noFlush1_4 t (fun h => h1 ((hcond1_1 t).mp h)))]
    rw [outsAt1_A V c t h0 h1]
    unfold sA sout1_A; (try dsimp only)
    by_cases hz : t.val = 0
    · rw [PhiS_castSucc V c t, PhiS_zero V c _ _ hz, PhiA1_eq]
      iintro ⟨⟨⟨B0, B1, B2, B3, B4, HS⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [B0 B1 B2 B3 B4 HS Hg]
      · isplitl [B0 B1 B2 B3 B4 HS]
        · isplitl [B0]; · iexact B0
          isplitl [B1]; · iexact B1
          isplitl [B2]; · iexact B2
          isplitl [B3]; · iexact B3
          isplitl [B4]; · iexact B4
          unfold owns; iexists _; isplitr
          swap; · iexact HS
          ipureintro; exact View.read_writes_of_cover _ _ _ _ _ (scover1_A c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨⟨⟨B0, B1, B2, B3, B4, HS⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [B0 B1 B2 B3 B4 HS Hg]
      · isplitl [B0 B1 B2 B3 B4 HS]
        · isplitl [B0]; · iexact B0
          isplitl [B1]; · iexact B1
          isplitl [B2]; · iexact B2
          isplitl [B3]; · iexact B3
          isplitl [B4]; · iexact B4
          unfold owns; iexists _; isplitr
          swap; · iexact HS
          ipureintro; exact View.read_writes_of_cover _ _ _ _ _ (scover1_A c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 8 = 7
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t ((hcond1_1 t).mpr h1)], after1_4]
      rw [outsAt1_C V c t h0 h1]
      unfold oC sC out1_C_4 sout1_C; (try dsimp only)
      rw [PhiS_castSucc V c t, PhiS_pos V c _ _ hz]
      iintro ⟨⟨⟨B0, B1, B2, B3, B4, HS⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [B0 B1 B2 B3 B4 HS Hg]
      · isplitl [B0 B1 B2 B3 B4 HS]
        · isplitl [B0]; · iexact B0
          isplitl [B1]; · iexact B1
          isplitl [B2]; · iexact B2
          isplitl [B3]; · iexact B3
          isplitl [B4]; · iexact B4
          unfold owns; iexists _; isplitr
          swap; · iexact HS
          ipureintro; exact View.read_writes_of_cover _ _ _ _ _ (scover1_C c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C_4 c _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4 t (fun h => h1 ((hcond1_1 t).mp h))) (noFlush1_4 t (fun h => h1 ((hcond1_1 t).mp h)))]
      rw [outsAt1_B V c t h0 h1]
      unfold sB sout1_B; (try dsimp only)
      rw [PhiS_castSucc V c t, PhiS_pos V c _ _ hz]
      iintro ⟨⟨⟨B0, B1, B2, B3, B4, HS⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [B0 B1 B2 B3 B4 HS Hg]
      · isplitl [B0 B1 B2 B3 B4 HS]
        · isplitl [B0]; · iexact B0
          isplitl [B1]; · iexact B1
          isplitl [B2]; · iexact B2
          isplitl [B3]; · iexact B3
          isplitl [B4]; · iexact B4
          unfold owns; iexists _; isplitr
          swap; · iexact HS
          ipureintro; exact View.read_writes_of_cover _ _ _ _ _ (scover1_B c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant's two ends -/

/-- The plain invariant is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the plain one back: what the accumulator holds is forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨B0, B1, B2, B3, B4, HS⟩, Hg⟩
  isplitl [B0 B1 B2 B3 B4 HS]
  · isplitl [B0]; · iexact B0
    isplitl [B1]; · iexact B1
    isplitl [B2]; · iexact B2
    isplitl [B3]; · iexact B3
    isplitl [B4]; · iexact B4
    iexists _; iexact HS
  iexact Hg

theorem hout1 (c : Dev nD) : (dat1 V c).Φ (Fin.last cfg1.N) ⊢ Pipeline.ΦA spec1 c :=
  Phi_out1 V c _ (by rw [Fin.val_last]; have : cfg1.N = 128 := N_1; omega)

end Cert.KernelIdeal.Hand

end
-- ==== Proof.Ideal.Run.lean ====
/-
  The whole program's run: the host's four operations on the weights, then the two kernel regions.

  The contents of the unscoped buffers at each boundary are a fold from the launch memory: after the host stretch
  (`W1`), after the first region (`W2`: its arrays at what its write-backs leave, every other buffer as entered), after
  the second region (`W3`, likewise). Each region is a segment record over its own proof data, entered from the thread
  state "every unscoped buffer at the boundary's contents, the generator register at some state, nothing owed" and
  left at the next boundary's. The run theorem says every weakly fair execution from the launch memory with zero
  counters terminates, nothing faulting, with every unscoped buffer at `W3`; from it follow that the four argument
  arrays end as launched, and what the result array holds.
-/
import proofs.«174376_j14001593385221_2_alg».proof.Proof.Ideal.Region0
import proofs.«174376_j14001593385221_2_alg».proof.Proof.Ideal.Region1
import proofs.«174376_j14001593385221_2_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the host stretch: the first region's entry. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At the second region's exit (it is entered from the first region's exit: no host operation lies between). -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The arguments end as launched -/

/-- The host stretch writes only the four transposed and converted weight arrays. -/
theorem W1_of (c : Dev nD) (r : Ref sig .tc) (h : r ∉ hostOps0_W) : W1 m c (Proc.devRef .tc r) = m ((c : Thread nD τ).loc r) :=
  Gen.V1_of m c r h

/-- `block`: read by the second region through an input window, bypassed by the first. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := (W3_arr m c 0).trans (((dat1 (V2 m) c).arrAt_in 0 rfl _).trans (A_eq1 (V2 m) c 0))
    _ = W1 m c (Proc.devRef .tc main_arg0) := W2_of_ne m c main_arg0 (by decide)
    _ = m ((c : Thread nD τ).loc main_arg0) := W1_of m c main_arg0 (by decide)

/-- `x`: read by both regions through input windows. -/
theorem W3_main_arg1 (c : Dev nD) : W3 m c (Proc.devRef .tc main_arg1) = m ((c : Thread nD τ).loc main_arg1) :=
  calc W3 m c (Proc.devRef .tc main_arg1)
    _ = W2 m c (Proc.devRef .tc main_arg1) := (W3_arr m c 2).trans (((dat1 (V2 m) c).arrAt_in 2 rfl _).trans (A_eq1 (V2 m) c 2))
    _ = W1 m c (Proc.devRef .tc main_arg1) := (W2_arr m c 0).trans (((dat0 (V1 m) c).arrAt_in 0 rfl _).trans (A_eq0 (V1 m) c 0))
    _ = m ((c : Thread nD τ).loc main_arg1) := W1_of m c main_arg1 (by decide)

/-- The two weight matrices: read by the host stretch only. -/
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = m ((c : Thread nD τ).loc main_arg2) := W1_of m c main_arg2 (by decide)
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = m ((c : Thread nD τ).loc main_arg3) := W1_of m c main_arg3 (by decide)

/-- The result array is the second region's output window's array. -/
theorem W3_main_v5 (c : Dev nD) : W3 m c (Proc.devRef .tc main_v5) = (dat1 (V2 m) c).arrAt 4 cfg1.N := W3_arr m c 4

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, at
    nothing. -/
abbrev R (c : Dev nD) : sProp 𝕄 := iprop((∃ r, prngReg c r) ∗ ∃ W, owes (c : Thread nD τ) (0 : CellTallies nD τ sig Unit) W)
/-- The host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W3 m c) ∗ ∃ r, prngReg c r)

/-! ## The regions as segments -/

-- a library lemma stated over the pinned configuration unifies with the printed one only when unification may unfold
-- plain definitions in a metavariable's type
set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show iprop((∃ r, prngReg c r) ∗ Pipeline.prefHeld (pcfgs (F := F) 1).pre c (fun _ => fullShare) (adm 1).1 ∗ Pipeline.scopedRest (Pipeline.pin (pcfgs (F := F)) adm 1).spec c) ⊢ (Pipeline.ΦA spec1 c : sProp 𝕄) from ?_).trans (hin1 (V2 m) c)
    unfold Pipeline.ΦA
    iintro ⟨Hp, -, Hr⟩
    isplitl [Hr]; · iexact Hr
    iexact Hp
  hout c := by
    rw [Pipeline.ownSems0_none]
    refine (hout1 (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting,
    and the final memory holds every unscoped buffer at the last boundary's contents; any post that follows from
    that holds. -/
theorem run_all {Q : PUnit × MemSt nD τ sig (Elt F) → Prop}
    (hQ : ∀ s : MemSt nD τ sig (Elt F), (∀ c : Dev nD, ∀ b ∈ Pipeline.ucRefs τ sig, s.mem (((c : Thread nD τ)).1, b) = W3 m c b) → Q (⟨⟩, s)) :
    θ_run defs (onTc (τ := τ) (main (F := F))) ⟨m, fun _ => 0, ρ⟩ Q :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := hQ)

/-- THE FRAME: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_all m ρ fun s h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c)⟩

/-- THE RUN WITH THE RESULT: besides the frame, the result array ends at what the second region's write-backs leave. -/
theorem run_result : θ_run defs (onTc (τ := τ) (main (F := F))) ⟨m, fun _ => 0, ρ⟩ (fun r => ∀ c : Dev nD,
      r.2.mem ((c.tc : Thread nD τ).loc main_v5) = (dat1 (V2 m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_all m ρ fun s h c =>
    ⟨(h c _ (mem_uc main_v5 (by decide))).trans (W3_main_v5 m c),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c)⟩

end Cert.KernelIdeal.Hand

end
-- ==== Proof.Ideal.R1Blocks.lean ====
/-
  The second region's input blocks as entries of their arrays.

  Point t of the 16 × 8 grid has row block t / 8 and source block t % 8. Window 0's block is rows 512·(t/8) … and
  columns 2048·(t%8) … of `block`; window 1's is rows 2048·(t%8) … of the projected array; window 2's is rows
  512·(t/8) … of the source array; window 3's is the whole transposed self-weight matrix. The block index maps are
  decided once over the grid; an entry of a block is then the entry of the array at index × block size + the
  coordinate inside the block, axis by axis.
-/
import proofs.«174376_j14001593385221_2_alg».proof.Proof.Ideal.Region1
import Idealize.ShloMosaic.Lib.Pipeline.Value
import Idealize.ShloMosaic.Lib.ValueIdx

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The block index maps, decided over the grid -/

theorem idx1_0 : ∀ t : Fin cfg1.N, win1_0.index t (0 : Fin 2) = t.val / 8 ∧ win1_0.index t (1 : Fin 2) = t.val % 8 :=
  (by decide +kernel : ∀ t : Fin grid1.N, win1_0.index t (0 : Fin 2) = t.val / 8 ∧ win1_0.index t (1 : Fin 2) = t.val % 8)
theorem idx1_1 : ∀ t : Fin cfg1.N, win1_1.index t (0 : Fin 2) = t.val % 8 ∧ win1_1.index t (1 : Fin 2) = 0 :=
  (by decide +kernel : ∀ t : Fin grid1.N, win1_1.index t (0 : Fin 2) = t.val % 8 ∧ win1_1.index t (1 : Fin 2) = 0)
theorem idx1_2 : ∀ t : Fin cfg1.N, win1_2.index t (0 : Fin 2) = t.val / 8 ∧ win1_2.index t (1 : Fin 2) = 0 :=
  (by decide +kernel : ∀ t : Fin grid1.N, win1_2.index t (0 : Fin 2) = t.val / 8 ∧ win1_2.index t (1 : Fin 2) = 0)
theorem idx1_3 : ∀ t : Fin cfg1.N, win1_3.index t (0 : Fin 2) = 0 ∧ win1_3.index t (1 : Fin 2) = 0 :=
  (by decide +kernel : ∀ t : Fin grid1.N, win1_3.index t (0 : Fin 2) = 0 ∧ win1_3.index t (1 : Fin 2) = 0)
theorem idx1_4 : ∀ t : Fin cfg1.N, win1_4.index t (0 : Fin 2) = t.val / 8 ∧ win1_4.index t (1 : Fin 2) = 0 :=
  (by decide +kernel : ∀ t : Fin grid1.N, win1_4.index t (0 : Fin 2) = t.val / 8 ∧ win1_4.index t (1 : Fin 2) = 0)

/-! ## The input blocks, entry by entry -/

/-- Window 0: a 512 × 2048 tile of `block`. -/
theorem iblk1_0_apply (c : Dev nD) (t : Fin cfg1.N) (x : S512x2048.Idx) (k : S8192x16384.Idx)
    (hk0 : (k 0).val = 512 * (t.val / 8) + (x 0).val) (hk1 : (k 1).val = 2048 * (t.val % 8) + (x 1).val) :
    (iblk1 V c 0 t : S512x2048.Idx → EReal) x = (V c main_arg0 : S8192x16384.Idx → EReal) k := by
  unfold iblk1
  rw [View.read_apply]
  show (V c main_arg0 : S8192x16384.Idx → EReal) _ = (V c main_arg0 : S8192x16384.Idx → EReal) _
  refine congrArg (V c main_arg0 : S8192x16384.Idx → EReal) (funext fun a => Fin.ext ?_)
  match a with
  | ⟨0, _⟩ => show win1_0.index t (0 : Fin 2) * 512 + 1 * (x 0).val = (k 0).val; rw [(idx1_0 t).1, hk0]; omega
  | ⟨1, _⟩ => show win1_0.index t (1 : Fin 2) * 2048 + 1 * (x 1).val = (k 1).val; rw [(idx1_0 t).2, hk1]; omega

/-- Window 1: 2048 rows of the projected array. -/
theorem iblk1_1_apply (c : Dev nD) (t : Fin cfg1.N) (x : S2048x1024.Idx) (k : S16384x1024.Idx)
    (hk0 : (k 0).val = 2048 * (t.val % 8) + (x 0).val) (hk1 : (k 1).val = (x 1).val) :
    (iblk1 V c 1 t : S2048x1024.Idx → EReal) x = (V c main_v4 : S16384x1024.Idx → EReal) k := by
  unfold iblk1
  rw [View.read_apply]
  show (V c main_v4 : S16384x1024.Idx → EReal) _ = (V c main_v4 : S16384x1024.Idx → EReal) _
  refine congrArg (V c main_v4 : S16384x1024.Idx → EReal) (funext fun a => Fin.ext ?_)
  match a with
  | ⟨0, _⟩ => show win1_1.index t (0 : Fin 2) * 2048 + 1 * (x 0).val = (k 0).val; rw [(idx1_1 t).1, hk0]; omega
  | ⟨1, _⟩ => show win1_1.index t (1 : Fin 2) * 1024 + 1 * (x 1).val = (k 1).val; rw [(idx1_1 t).2, hk1]; omega

/-- Window 2: 512 rows of the source array. -/
theorem iblk1_2_apply (c : Dev nD) (t : Fin cfg1.N) (x : S512x1024.Idx) (k : S16384x1024.Idx)
    (hk0 : (k 0).val = 512 * (t.val / 8) + (x 0).val) (hk1 : (k 1).val = (x 1).val) :
    (iblk1 V c 2 t : S512x1024.Idx → EReal) x = (V c main_arg1 : S16384x1024.Idx → EReal) k := by
  unfold iblk1
  rw [View.read_apply]
  show (V c main_arg1 : S16384x1024.Idx → EReal) _ = (V c main_arg1 : S16384x1024.Idx → EReal) _
  refine congrArg (V c main_arg1 : S16384x1024.Idx → EReal) (funext fun a => Fin.ext ?_)
  match a with
  | ⟨0, _⟩ => show win1_2.index t (0 : Fin 2) * 512 + 1 * (x 0).val = (k 0).val; rw [(idx1_2 t).1, hk0]; omega
  | ⟨1, _⟩ => show win1_2.index t (1 : Fin 2) * 1024 + 1 * (x 1).val = (k 1).val; rw [(idx1_2 t).2, hk1]; omega

/-- Window 3: the transposed self weights, whole. -/
theorem iblk1_3_apply (c : Dev nD) (t : Fin cfg1.N) (x : S1024x1024.Idx) (k : S1024x1024.Idx)
    (hk0 : (k 0).val = (x 0).val) (hk1 : (k 1).val = (x 1).val) :
    (iblk1 V c 3 t : S1024x1024.Idx → EReal) x = (V c main_v3 : S1024x1024.Idx → EReal) k := by
  unfold iblk1
  rw [View.read_apply]
  show (V c main_v3 : S1024x1024.Idx → EReal) _ = (V c main_v3 : S1024x1024.Idx → EReal) _
  refine congrArg (V c main_v3 : S1024x1024.Idx → EReal) (funext fun a => Fin.ext ?_)
  match a with
  | ⟨0, _⟩ => show win1_3.index t (0 : Fin 2) * 1024 + 1 * (x 0).val = (k 0).val; rw [(idx1_3 t).1, hk0]; omega
  | ⟨1, _⟩ => show win1_3.index t (1 : Fin 2) * 1024 + 1 * (x 1).val = (k 1).val; rw [(idx1_3 t).2, hk1]; omega

end Cert.KernelIdeal.HandValue

end
-- ==== Proof.Ideal.R1Pieces.lean ====
/-
  What each case of the second region's body leaves, as values.

  The pieces found by running the body are opened here: at the first source block the accumulator ends at the second
  stored value computed over the first (the self product, read back whole); at the other points at the second stored
  value computed over the contents the point before left; at the last source block the output window's staging buffer
  receives the accumulator's new contents. Each store and each load is of a whole buffer, so a list of pieces reads
  back as its last store's value and a load returns the buffer's contents.
-/
import proofs.«174376_j14001593385221_2_alg».proof.Proof.Ideal.Region1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- At k = 0 the accumulator ends at the accumulated value over the self product. -/
theorem sout1_A_eq (c : Dev nD) (i : grid1.Coords) (arg2 : Memref sig .tc .vmem S512x2048 .f32) (harg2 : arg2.IsWhole) (arg3 : Memref sig .tc .vmem S2048x1024 .bf16) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S512x1024 .f32) (harg6 : arg6.IsWhole) (arg7 : Memref sig .tc .vmem S512x1024 .f32) (harg7 : arg7.IsWhole) (hc0 : cond1_0 i) (hc1 : ¬cond1_1 i)
    (x0 : Vec F S512x2048 .f32) (x1 : Vec F S2048x1024 .bf16) (x2 : Vec F S512x1024 .f32) (x3 : Vec F S1024x1024 .bf16) :
    sout1_A c i arg2 harg2 arg3 harg3 arg4 harg4 arg5 harg5 arg6 harg6 arg7 harg7 hc0 hc1 x0 x1 x2 x3 = k1_pay2 x0 (k1_pay1 x2 x3) x1 := by
  unfold sout1_A
  rw [View.read_writes_eq_canon _ _ _ (scover1_A c i arg2 harg2 arg3 harg3 arg4 harg4 arg5 harg5 arg6 harg6 arg7 harg7 hc0 hc1 x0 x1 x2 x3)]
  unfold kernelRun1_A
  dsimp only
  sl_unfold_words
  rw [View.canon_cons_unit_zero (S := S512x1024) hz, View.readCov_unit_zero (S := S512x1024) _ hz]
  simp only [View.readAt_eq_ld, harg2.read_unread, harg3.read_unread, harg4.read_unread, harg5.read_unread, harg7.read_unread, View.ld_unit_zero (S := S512x2048) hz, View.ld_unit_zero (S := S2048x1024) hz, View.ld_unit_zero (S := S512x1024) hz, View.ld_unit_zero (S := S1024x1024) hz]

/-- At 0 < k < 7 the accumulator ends at the accumulated value over what the point before left. -/
theorem sout1_B_eq (c : Dev nD) (i : grid1.Coords) (arg2 : Memref sig .tc .vmem S512x2048 .f32) (harg2 : arg2.IsWhole) (arg3 : Memref sig .tc .vmem S2048x1024 .bf16) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S512x1024 .f32) (harg6 : arg6.IsWhole) (arg7 : Memref sig .tc .vmem S512x1024 .f32) (harg7 : arg7.IsWhole) (hc0 : ¬cond1_0 i) (hc1 : ¬cond1_1 i)
    (x0 : Vec F S512x2048 .f32) (x1 : Vec F S2048x1024 .bf16) (x2 : Vec F S512x1024 .f32) (x3 : Vec F S1024x1024 .bf16) (xs : Vec F S512x1024 .f32) :
    sout1_B c i arg2 harg2 arg3 harg3 arg4 harg4 arg5 harg5 arg6 harg6 arg7 harg7 hc0 hc1 x0 x1 x2 x3 xs = k1_pay2 x0 xs x1 := by
  unfold sout1_B
  rw [View.read_writes_eq_canon _ _ _ (scover1_B c i arg2 harg2 arg3 harg3 arg4 harg4 arg5 harg5 arg6 harg6 arg7 harg7 hc0 hc1 x0 x1 x2 x3 xs)]
  unfold kernelRun1_B
  dsimp only
  sl_unfold_words
  rw [View.canon_unit_zero hz]
  simp only [View.readAt_eq_ld, harg2.read_unread, harg3.read_unread, harg4.read_unread, harg5.read_unread, harg7.read_unread, View.ld_unit_zero (S := S512x2048) hz, View.ld_unit_zero (S := S2048x1024) hz, View.ld_unit_zero (S := S512x1024) hz, View.ld_unit_zero (S := S1024x1024) hz]

/-- At k = 7 the accumulator ends at the accumulated value over what the point before left, -/
theorem sout1_C_eq (c : Dev nD) (i : grid1.Coords) (arg2 : Memref sig .tc .vmem S512x2048 .f32) (harg2 : arg2.IsWhole) (arg3 : Memref sig .tc .vmem S2048x1024 .bf16) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S512x1024 .f32) (harg6 : arg6.IsWhole) (arg7 : Memref sig .tc .vmem S512x1024 .f32) (harg7 : arg7.IsWhole) (hc0 : ¬cond1_0 i) (hc1 : cond1_1 i)
    (x0 : Vec F S512x2048 .f32) (x1 : Vec F S2048x1024 .bf16) (x2 : Vec F S512x1024 .f32) (x3 : Vec F S1024x1024 .bf16) (xs : Vec F S512x1024 .f32) :
    sout1_C c i arg2 harg2 arg3 harg3 arg4 harg4 arg5 harg5 arg6 harg6 arg7 harg7 hc0 hc1 x0 x1 x2 x3 xs = k1_pay2 x0 xs x1 := by
  unfold sout1_C
  rw [View.read_writes_eq_canon _ _ _ (scover1_C c i arg2 harg2 arg3 harg3 arg4 harg4 arg5 harg5 arg6 harg6 arg7 harg7 hc0 hc1 x0 x1 x2 x3 xs)]
  unfold kernelRun1_C
  dsimp only
  sl_unfold_words
  rw [View.canon_unit_zero hz]
  simp only [View.readAt_eq_ld, harg2.read_unread, harg3.read_unread, harg4.read_unread, harg5.read_unread, harg7.read_unread, View.ld_unit_zero (S := S512x2048) hz, View.ld_unit_zero (S := S2048x1024) hz, View.ld_unit_zero (S := S512x1024) hz, View.ld_unit_zero (S := S1024x1024) hz]

/-- and the output window's staging buffer receives the same value. -/
theorem out1_C_4_eq (c : Dev nD) (i : grid1.Coords) (arg2 : Memref sig .tc .vmem S512x2048 .f32) (harg2 : arg2.IsWhole) (arg3 : Memref sig .tc .vmem S2048x1024 .bf16) (harg3 : arg3.IsWhole) (arg4 : Memref sig .tc .vmem S512x1024 .f32) (harg4 : arg4.IsWhole) (arg5 : Memref sig .tc .vmem S1024x1024 .bf16) (harg5 : arg5.IsWhole) (arg6 : Memref sig .tc .vmem S512x1024 .f32) (harg6 : arg6.IsWhole) (arg7 : Memref sig .tc .vmem S512x1024 .f32) (harg7 : arg7.IsWhole) (hc0 : ¬cond1_0 i) (hc1 : cond1_1 i)
    (x0 : Vec F S512x2048 .f32) (x1 : Vec F S2048x1024 .bf16) (x2 : Vec F S512x1024 .f32) (x3 : Vec F S1024x1024 .bf16) (xs : Vec F S512x1024 .f32) :
    out1_C_4 c i arg2 harg2 arg3 harg3 arg4 harg4 arg5 harg5 arg6 harg6 arg7 harg7 hc0 hc1 x0 x1 x2 x3 xs = k1_pay2 x0 xs x1 := by
  unfold out1_C_4
  rw [View.read_writes_eq_canon _ _ _ (cover1_C_4 c i arg2 harg2 arg3 harg3 arg4 harg4 arg5 harg5 arg6 harg6 arg7 harg7 hc0 hc1 x0 x1 x2 x3 xs)]
  unfold kernelRun1_C
  dsimp only
  sl_unfold_words
  rw [View.canon_unit_zero hz, View.readCov_unit_zero (S := S512x1024) _ hz]
  simp only [View.readAt_eq_ld, harg2.read_unread, harg3.read_unread, harg4.read_unread, harg5.read_unread, harg7.read_unread, View.ld_unit_zero (S := S512x2048) hz, View.ld_unit_zero (S := S2048x1024) hz, View.ld_unit_zero (S := S512x1024) hz, View.ld_unit_zero (S := S1024x1024) hz]

end Cert.KernelIdeal.Hand

end
-- ==== Proof.LibMatmulRows.lean ====
/-
  A plain matrix product into a zero accumulator, read at a row and a column.

  For dimension numbers that contract the left operand's axis 1 against the right operand's axis 0, with no batch axis,
  the product of an [M, K] and a [K, N] array into the zero splat reads at (p, c) as the sum over a < K of
  l(p, a) · r(a, c): the product's sum over the contraction shape's indices, re-indexed through that shape's one axis.
-/
import Idealize.ShloMosaic.PureOps.Ideal.Laws
import Idealize.ShloMosaic.Lib.ValueIdx

noncomputable section

namespace Cert.LibMatmulRows

open Idealize.ShloMosaic Idealize.ShloMosaic.ValueIdx

/-- The product into the zero accumulator at (p, c), from the four facts that say which operand index the dimension
    numbers read at an output index and a contraction index. -/
theorem matmul_zero_ix2 {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ a : Fin K, l (ix2 p a) * r (ix2 a c) := by
  show FloatOps.matmul d prec l r (constant ⟨2, ![M, N]⟩ .f32 0x00000000#32) (ix2 p c) = _
  rw [Ideal.matmul_constant_zero_apply, ← Equiv.sum_comp (contrEquiv1 d K hr hs).symm]
  refine Finset.sum_congr rfl fun a _ => ?_
  have hk := contrEquiv1_symm_val d K hr hs a
  have el : d.lhsIdx (ix2 p c) ((contrEquiv1 d K hr hs).symm a) = ix2 p a := funext fun x => Fin.ext (by
    match x with
    | ⟨0, _⟩ => exact hl0 _ _
    | ⟨1, _⟩ => exact (hl1 _ _).trans hk)
  have er : d.rhsIdx (ix2 p c) ((contrEquiv1 d K hr hs).symm a) = ix2 a c := funext fun x => Fin.ext (by
    match x with
    | ⟨0, _⟩ => exact (hr0 _ _).trans hk
    | ⟨1, _⟩ => exact hr1 _ _)
  rw [el, er]

end Cert.LibMatmulRows

end
-- ==== Proof.Payloads.lean ====
/-
  The three values the kernel bodies store, entry by entry over the extended reals.

  Each body narrows its left operand, multiplies it by its right operand into a zero accumulator, and stores the product
  (the second body of the second kernel adds it to what the output block held before). Over the extended reals a format
  change and a cast to the same shape are the identity, and a product into the zero accumulator read at (p, c) is
  Σ_a l(p, a) · r(a, c).
-/
import proofs.«174376_j14001593385221_2_alg».proof.Proof.Gen.KernelIdeal.Skeleton
import proofs.«174376_j14001593385221_2_alg».proof.Proof.LibMatmulRows
import Idealize.ShloMosaic.Lib.ValueIdx
import Idealize.ShloMosaic.Lib.Pipeline.Value
import Idealize.ShloMosaic.PureOps.Ideal.Laws

noncomputable section

namespace Cert.KernelIdeal.PayValue

open Cert.KernelIdeal Cert.KernelIdeal.Gen Idealize.ShloMosaic Idealize.ShloMosaic.ValueIdx

/-! ## Which operand entries each product reads

For each of the three dimension records (all contract the left operand's axis 1 against the right operand's axis 0, with
no batch axis): the left index keeps the output row and takes the contraction index as its column; the right index takes
the contraction index as its row and keeps the output column. -/

theorem y_lhs0 (i : S2048x1024.Idx) (q : dot_S2048x1024_S1024x1024_S2048x1024_1_0_0_1_n_n.contr.Idx) :
    (dot_S2048x1024_S1024x1024_S2048x1024_1_0_0_1_n_n.lhsIdx i q 0).val = (i 0).val := by
  unfold DotDims.lhsIdx
  rw [dif_neg (show ¬(0 : Fin S2048x1024.rank) ∈ dot_S2048x1024_S1024x1024_S2048x1024_1_0_0_1_n_n.lhsBatch by decide), dif_pos (show (0 : Fin S2048x1024.rank) ∈ dot_S2048x1024_S1024x1024_S2048x1024_1_0_0_1_n_n.lhsNonContracting by decide)]
  rfl
theorem y_lhs1 (i : S2048x1024.Idx) (q : dot_S2048x1024_S1024x1024_S2048x1024_1_0_0_1_n_n.contr.Idx) :
    (dot_S2048x1024_S1024x1024_S2048x1024_1_0_0_1_n_n.lhsIdx i q 1).val = (q ⟨0, by decide⟩).val :=
  dot_S2048x1024_S1024x1024_S2048x1024_1_0_0_1_n_n.lhsIdx_val_of_single rfl i q
theorem y_rhs0 (i : S2048x1024.Idx) (q : dot_S2048x1024_S1024x1024_S2048x1024_1_0_0_1_n_n.contr.Idx) :
    (dot_S2048x1024_S1024x1024_S2048x1024_1_0_0_1_n_n.rhsIdx i q 0).val = (q ⟨0, by decide⟩).val :=
  dot_S2048x1024_S1024x1024_S2048x1024_1_0_0_1_n_n.rhsIdx_val_of_single rfl i q
theorem y_rhs1 (i : S2048x1024.Idx) (q : dot_S2048x1024_S1024x1024_S2048x1024_1_0_0_1_n_n.contr.Idx) :
    (dot_S2048x1024_S1024x1024_S2048x1024_1_0_0_1_n_n.rhsIdx i q 1).val = (i 1).val := by
  unfold DotDims.rhsIdx
  rw [dif_neg (show ¬(1 : Fin S1024x1024.rank) ∈ dot_S2048x1024_S1024x1024_S2048x1024_1_0_0_1_n_n.rhsBatch by decide), dif_pos (show (1 : Fin S1024x1024.rank) ∈ dot_S2048x1024_S1024x1024_S2048x1024_1_0_0_1_n_n.rhsNonContracting by decide)]
  rfl

theorem self_lhs0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem self_lhs1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem self_rhs0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem self_rhs1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

theorem acc_lhs0 (i : S512x1024.Idx) (q : dot_S512x2048_S2048x1024_S512x1024_1_0_0_1_n_n.contr.Idx) :
    (dot_S512x2048_S2048x1024_S512x1024_1_0_0_1_n_n.lhsIdx i q 0).val = (i 0).val := by
  unfold DotDims.lhsIdx
  rw [dif_neg (show ¬(0 : Fin S512x2048.rank) ∈ dot_S512x2048_S2048x1024_S512x1024_1_0_0_1_n_n.lhsBatch by decide), dif_pos (show (0 : Fin S512x2048.rank) ∈ dot_S512x2048_S2048x1024_S512x1024_1_0_0_1_n_n.lhsNonContracting by decide)]
  rfl
theorem acc_lhs1 (i : S512x1024.Idx) (q : dot_S512x2048_S2048x1024_S512x1024_1_0_0_1_n_n.contr.Idx) :
    (dot_S512x2048_S2048x1024_S512x1024_1_0_0_1_n_n.lhsIdx i q 1).val = (q ⟨0, by decide⟩).val :=
  dot_S512x2048_S2048x1024_S512x1024_1_0_0_1_n_n.lhsIdx_val_of_single rfl i q
theorem acc_rhs0 (i : S512x1024.Idx) (q : dot_S512x2048_S2048x1024_S512x1024_1_0_0_1_n_n.contr.Idx) :
    (dot_S512x2048_S2048x1024_S512x1024_1_0_0_1_n_n.rhsIdx i q 0).val = (q ⟨0, by decide⟩).val :=
  dot_S512x2048_S2048x1024_S512x1024_1_0_0_1_n_n.rhsIdx_val_of_single rfl i q
theorem acc_rhs1 (i : S512x1024.Idx) (q : dot_S512x2048_S2048x1024_S512x1024_1_0_0_1_n_n.contr.Idx) :
    (dot_S512x2048_S2048x1024_S512x1024_1_0_0_1_n_n.rhsIdx i q 1).val = (i 1).val := by
  unfold DotDims.rhsIdx
  rw [dif_neg (show ¬(1 : Fin S2048x1024.rank) ∈ dot_S512x2048_S2048x1024_S512x1024_1_0_0_1_n_n.rhsBatch by decide), dif_pos (show (1 : Fin S2048x1024.rank) ∈ dot_S512x2048_S2048x1024_S512x1024_1_0_0_1_n_n.rhsNonContracting by decide)]
  rfl

/-! ## The three stored values -/

/-- The first kernel's stored block: the rows of `x` it holds times the weight block. -/
theorem pay_y (v0 : Vec Ideal S2048x1024 .f32) (v2 : Vec Ideal S1024x1024 .bf16) (p : Fin 2048) (c : Fin 1024) :
    k0_pay1 v0 v2 (ix2 p c) = ∑ a : Fin 1024, v0 (ix2 p a) * v2 (ix2 a c) := by
  unfold k0_pay1
  rw [truncf_apply, shapeCast_self]
  exact Cert.LibMatmulRows.matmul_zero_ix2 (M := 2048) (K := 1024) (N := 1024) dot_S2048x1024_S1024x1024_S2048x1024_1_0_0_1_n_n rfl rfl
    y_lhs0 y_lhs1 y_rhs0 y_rhs1 none (truncf .bf16 v0 bitsLt_bf16_f32) v2 p c

/-- The second kernel's first stored block: the destination rows it holds times the self-weight block. -/
theorem pay_self (v16 : Vec Ideal S512x1024 .f32) (v18 : Vec Ideal S1024x1024 .bf16) (p : Fin 512) (c : Fin 1024) :
    k1_pay1 v16 v18 (ix2 p c) = ∑ a : Fin 1024, v16 (ix2 p a) * v18 (ix2 a c) := by
  unfold k1_pay1
  rw [shapeCast_self, shapeCast_self]
  exact Cert.LibMatmulRows.matmul_zero_ix2 (M := 512) (K := 1024) (N := 1024) dot_S512x1024_S1024x1024_S512x1024_1_0_0_1_n_n rfl rfl
    self_lhs0 self_lhs1 self_rhs0 self_rhs1 none (truncf .bf16 v16 bitsLt_bf16_f32) v18 p c

/-- The second kernel's accumulating block: what the output block held plus the `block` tile times the projected rows. -/
theorem pay_acc (v3 : Vec Ideal S512x2048 .f32) (v5 : Vec Ideal S512x1024 .f32) (v6 : Vec Ideal S2048x1024 .bf16)
    (p : Fin 512) (c : Fin 1024) :
    k1_pay2 v3 v5 v6 (ix2 p c) = v5 (ix2 p c) + ∑ a : Fin 2048, v3 (ix2 p a) * v6 (ix2 a c) := by
  unfold k1_pay2
  rw [shapeCast_self, shapeCast_self, addf_apply]
  exact congrArg (v5 (ix2 p c) + ·) (Cert.LibMatmulRows.matmul_zero_ix2 (M := 512) (K := 2048) (N := 1024) dot_S512x2048_S2048x1024_S512x1024_1_0_0_1_n_n rfl rfl
    acc_lhs0 acc_lhs1 acc_rhs0 acc_rhs1 none (truncf .bf16 v3 bitsLt_bf16_f32) v6 p c)

end Cert.KernelIdeal.PayValue

end
-- ==== Proof.LibBlockAccumulate.lean ====
/-
  An accumulator over periods of K steps, in any additive commutative monoid.

  Time is cut into periods of K consecutive steps; step n lies in period n / K at position n % K. Each period q has its
  own sequence of values e q 0, e q 1, …. The accumulator is set back to zero at the first step of every period, and
  step n adds to it the L consecutive values of its period's sequence that start at L · (n % K). Then after step n the
  accumulator holds the sum of the first L · (n % K + 1) values of the period's sequence (`accumulate_rows`); after the
  last step of a period it holds the sum of the first L · K values (`accumulate_rows_last`). Two small facts serve the
  statement: a range sum of length L · (k + 1) is the range sum of length L · k followed by one more block of L values
  (`sum_range_block_succ`), and a range sum of a function given on `Fin N`, read through a bound check, is the sum over
  `Fin N` (`range_sum_dite`). Nothing here mentions a program.
-/
import Mathlib.Algebra.BigOperators.Intervals
import Mathlib.Algebra.BigOperators.Fin
import Mathlib.Tactic

namespace Cert.LibBlockAccumulate

open Finset

variable {M : Type*} [AddCommMonoid M]

/-- A range sum of a function given on `Fin N`, read through a bound check, is the sum over `Fin N`. -/
theorem range_sum_dite {N : ℕ} (f : Fin N → M) :
    ∑ j ∈ Finset.range N, (if h : j < N then f ⟨j, h⟩ else 0) = ∑ j : Fin N, f j := by
  rw [Finset.sum_fin_eq_sum_range]

/-- A range sum of length `L * (k + 1)` is the range sum of length `L * k` plus the next block of `L` values. -/
theorem sum_range_block_succ (L k : ℕ) (g : ℕ → M) :
    ∑ j ∈ Finset.range (L * (k + 1)), g j
      = ∑ j ∈ Finset.range (L * k), g j + ∑ j : Fin L, g (L * k + j.val) := by
  rw [Nat.mul_succ, Finset.sum_range_add, Fin.sum_univ_eq_sum_range (fun j => g (L * k + j)) L]

/-- One step back inside a period: when `n` is not at the start of its period, `n - 1` lies in the same period, one
position earlier. -/
theorem pred_div_mod (K n : ℕ) (hK : 0 < K) (h : n % K ≠ 0) :
    (n - 1) / K = n / K ∧ (n - 1) % K = n % K - 1 := by
  have hr : n % K < K := Nat.mod_lt n hK
  have hn : n - 1 = K * (n / K) + (n % K - 1) := by
    have := Nat.div_add_mod n K
    omega
  rw [hn]
  constructor
  · rw [Nat.mul_add_div hK, Nat.div_eq_of_lt (show n % K - 1 < K by omega), Nat.add_zero]
  · rw [Nat.mul_add_mod, Nat.mod_eq_of_lt (show n % K - 1 < K by omega)]

/-- An accumulator that is reset at the start of every period of `K` steps and to which step `n` adds the `L`
consecutive values of its period's sequence starting at `L * (n % K)` holds, after step `n`, the sum of the first
`L * (n % K + 1)` values. -/
theorem accumulate_rows (L K : ℕ) (hK : 0 < K) (e : ℕ → ℕ → M) (A : ℕ → M)
    (hfirst : ∀ n, n % K = 0 → A n = 0 + ∑ j : Fin L, e (n / K) (L * (n % K) + j.val))
    (hnext : ∀ n, n % K ≠ 0 → A n = A (n - 1) + ∑ j : Fin L, e (n / K) (L * (n % K) + j.val)) :
    ∀ n, A n = ∑ j ∈ Finset.range (L * (n % K + 1)), e (n / K) j := by
  intro n
  induction n using Nat.strong_induction_on with
  | _ n ih =>
    by_cases h0 : n % K = 0
    · rw [hfirst n h0, sum_range_block_succ L (n % K) (e (n / K)), h0]
      simp only [Nat.mul_zero, Finset.range_zero, Finset.sum_empty]
    · obtain ⟨hd, hm⟩ := pred_div_mod K n hK h0
      have hlt : n - 1 < n := by
        have hn0 : n ≠ 0 := by
          rintro rfl
          exact h0 (Nat.zero_mod K)
        omega
      have hk : n % K - 1 + 1 = n % K := by omega
      rw [hnext n h0, ih (n - 1) hlt, hd, hm, hk, sum_range_block_succ L (n % K) (e (n / K))]

/-- After the last step of a period the accumulator holds the sum of the first `L * K` values. -/
theorem accumulate_rows_last (L K : ℕ) (hK : 0 < K) (e : ℕ → ℕ → M) (A : ℕ → M)
    (hfirst : ∀ n, n % K = 0 → A n = 0 + ∑ j : Fin L, e (n / K) (L * (n % K) + j.val))
    (hnext : ∀ n, n % K ≠ 0 → A n = A (n - 1) + ∑ j : Fin L, e (n / K) (L * (n % K) + j.val))
    (n : ℕ) (h : n % K = K - 1) :
    A n = ∑ j ∈ Finset.range (L * K), e (n / K) j := by
  have hk : K - 1 + 1 = K := by omega
  rw [accumulate_rows L K hK e A hfirst hnext n, h, hk]

end Cert.LibBlockAccumulate
-- ==== Proof.LibAccumulateFrom.lean ====
/-
  An accumulator over periods of K steps that starts each period from a given value, in any additive commutative monoid.

  Time is cut into periods of K consecutive steps; step n lies in period n / K at position n % K. Period q has a starting
  value S q and a sequence of values e q 0, e q 1, …. At the first step of a period the accumulator is set to S q plus
  the first L values of the period's sequence; every later step adds the next L values to what the step before left.
  Then after step n the accumulator holds S (n / K) plus the sum of the first L · (n % K + 1) values of the period's
  sequence, and after a period's last step S (n / K) plus the first L · K values. The steps may be bounded by N: only
  steps below N are asked about, and only they are used. Nothing here mentions a program.
-/
import proofs.«174376_j14001593385221_2_alg».proof.Proof.LibBlockAccumulate

namespace Cert.LibAccumulateFrom

open Finset

variable {M : Type*} [AddCommMonoid M]

/-- After step `n` the accumulator holds the period's starting value plus the first `L * (n % K + 1)` values. -/
theorem accumulate_from (L K N : ℕ) (hK : 0 < K) (S : ℕ → M) (e : ℕ → ℕ → M) (A : ℕ → M)
    (hfirst : ∀ n, n < N → n % K = 0 → A n = S (n / K) + ∑ j : Fin L, e (n / K) (L * (n % K) + j.val))
    (hnext : ∀ n, n < N → n % K ≠ 0 → A n = A (n - 1) + ∑ j : Fin L, e (n / K) (L * (n % K) + j.val)) :
    ∀ n, n < N → A n = S (n / K) + ∑ j ∈ Finset.range (L * (n % K + 1)), e (n / K) j := by
  intro n
  induction n using Nat.strong_induction_on with
  | _ n ih =>
    intro hn
    by_cases h0 : n % K = 0
    · rw [hfirst n hn h0, Cert.LibBlockAccumulate.sum_range_block_succ L (n % K) (e (n / K)), h0]
      simp only [Nat.mul_zero, Finset.range_zero, Finset.sum_empty, zero_add]
    · obtain ⟨hd, hm⟩ := Cert.LibBlockAccumulate.pred_div_mod K n hK h0
      have hn0 : n ≠ 0 := by
        rintro rfl
        exact h0 (Nat.zero_mod K)
      have hlt : n - 1 < n := by omega
      have hk : n % K - 1 + 1 = n % K := by omega
      rw [hnext n hn h0, ih (n - 1) hlt (by omega), hd, hm, hk,
        Cert.LibBlockAccumulate.sum_range_block_succ L (n % K) (e (n / K)), add_assoc]

/-- After the last step of a period: the starting value plus the first `L * K` values. -/
theorem accumulate_from_last (L K N : ℕ) (hK : 0 < K) (S : ℕ → M) (e : ℕ → ℕ → M) (A : ℕ → M)
    (hfirst : ∀ n, n < N → n % K = 0 → A n = S (n / K) + ∑ j : Fin L, e (n / K) (L * (n % K) + j.val))
    (hnext : ∀ n, n < N → n % K ≠ 0 → A n = A (n - 1) + ∑ j : Fin L, e (n / K) (L * (n % K) + j.val))
    (n : ℕ) (hn : n < N) (h : n % K = K - 1) :
    A n = S (n / K) + ∑ j ∈ Finset.range (L * K), e (n / K) j := by
  have hk : K - 1 + 1 = K := by omega
  rw [accumulate_from L K N hK S e A hfirst hnext n hn, h, hk]

end Cert.LibAccumulateFrom
-- ==== Proof.Spec.lean ====
/-
  What both programs compute, as ONE function of the four argument arrays, entry by entry over the extended reals.

  With `x` of 16384 rows and 1024 columns, two weight matrices `ws`, `wn` of 1024 rows (output features) and 1024
  columns (input features), and `block` of 8192 rows and 16384 columns:

    proj  (s, o) = Σ_d x(s, d) · wn(o, d)                      every source row projected by the neighbour weights
    selfT (i, o) = Σ_d x(i, d) · ws(o, d)        for i < 8192   the first 8192 rows projected by the self weights
    G     (i, o) = selfT (i, o) + Σ_s block(i, s) · proj (s, o)

  Only sums and products of the entries occur: no subtraction, no division, no literal.
-/
import Idealize.ShloMosaic.PureOps.Ideal
import Idealize.ShloMosaic.Lib.ValueIdx

noncomputable section

namespace Cert.SageSpec

open Idealize.ShloMosaic Idealize.ShloMosaic.ValueIdx

/-- One of the first 8192 row numbers, read as a row number of the 16384-row array. -/
def up (i : Fin 8192) : Fin 16384 := ⟨i.val, by have := i.isLt; omega⟩

theorem up_val (i : Fin 8192) : (up i).val = i.val := rfl

/-- Entry (s, o) of `x · wnᵀ`: source row `s` projected onto output feature `o`. -/
def proj (x : FVec Ideal ⟨2, ![16384, 1024]⟩ .f32) (wn : FVec Ideal ⟨2, ![1024, 1024]⟩ .f32) (s : Fin 16384) (o : Fin 1024) : EReal :=
  ∑ d : Fin 1024, x (ix2 s d) * wn (ix2 o d)

/-- Entry (i, o) of `x[:8192] · wsᵀ`: destination row `i` projected onto output feature `o`. -/
def selfTerm (x : FVec Ideal ⟨2, ![16384, 1024]⟩ .f32) (ws : FVec Ideal ⟨2, ![1024, 1024]⟩ .f32) (i : Fin 8192) (o : Fin 1024) : EReal :=
  ∑ d : Fin 1024, x (ix2 (up i) d) * ws (ix2 o d)

/-- The result array: the self term plus the aggregation of the projected source rows by `block`. -/
def G (block : FVec Ideal ⟨2, ![8192, 16384]⟩ .f32) (x : FVec Ideal ⟨2, ![16384, 1024]⟩ .f32)
    (ws wn : FVec Ideal ⟨2, ![1024, 1024]⟩ .f32) : FVec Ideal ⟨2, ![8192, 1024]⟩ .f32 :=
  fun j => selfTerm x ws (j 0) (j 1) + ∑ s : Fin 16384, block (ix2 (j 0) s) * proj x wn s (j 1)

theorem G_apply (block : FVec Ideal ⟨2, ![8192, 16384]⟩ .f32) (x : FVec Ideal ⟨2, ![16384, 1024]⟩ .f32)
    (ws wn : FVec Ideal ⟨2, ![1024, 1024]⟩ .f32) (i : Fin 8192) (o : Fin 1024) :
    G block x ws wn (ix2 i o) = selfTerm x ws i o + ∑ s : Fin 16384, block (ix2 i s) * proj x wn s o := rfl

end Cert.SageSpec

end
-- ==== Proof.Ideal.AccValue.lean ====
/-
  The second region's accumulator, entry by entry over the extended reals.

  Fix a local row p < 512 and a column o. For row block q the "source sequence" is e q j = block(512q + p, j) · y(j, o)
  for j < 16384, and the starting value is S q = Σ_d x(512q + p, d) · wsᵀ(d, o). At the first source block of a row
  block the accumulator's entry is S q plus the first 2048 values of the sequence; at every later source block it is
  what the point before left plus the next 2048 values. So after the point with source block k it is S q plus the first
  2048·(k + 1) values, and after the last source block S q plus all 16384: the self term plus the whole aggregation.
  At that point the output window's staging buffer receives the same values.
-/
import proofs.«174376_j14001593385221_2_alg».proof.Proof.Ideal.R1Blocks
import proofs.«174376_j14001593385221_2_alg».proof.Proof.Ideal.R1Pieces
import proofs.«174376_j14001593385221_2_alg».proof.Proof.Payloads
import proofs.«174376_j14001593385221_2_alg».proof.Proof.LibAccumulateFrom
import proofs.«174376_j14001593385221_2_alg».proof.Proof.Spec

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

open Cert.KernelIdeal.PayValue

/-! ## The four arrays the region reads, as functions into the extended reals -/

abbrev blockArr (c : Dev nD) : S8192x16384.Idx → EReal := V c main_arg0
abbrev yArr (c : Dev nD) : S16384x1024.Idx → EReal := V c main_v4
abbrev xArr (c : Dev nD) : S16384x1024.Idx → EReal := V c main_arg1
abbrev wsArr (c : Dev nD) : S1024x1024.Idx → EReal := V c main_v3

/-- The four staged blocks at point t, as functions into the extended reals. -/
abbrev blk0 (c : Dev nD) (t : Fin cfg1.N) : S512x2048.Idx → EReal := iblk1 V c 0 t
abbrev blk1 (c : Dev nD) (t : Fin cfg1.N) : S2048x1024.Idx → EReal := iblk1 V c 1 t
abbrev blk2 (c : Dev nD) (t : Fin cfg1.N) : S512x1024.Idx → EReal := iblk1 V c 2 t
abbrev blk3 (c : Dev nD) (t : Fin cfg1.N) : S1024x1024.Idx → EReal := iblk1 V c 3 t

/-- Row block `q`'s source sequence at local row `p` and column `o` (zero outside the arrays). -/
def eSeq (c : Dev nD) (p : Fin 512) (o : Fin 1024) (q j : ℕ) : EReal :=
  if h : 512 * q + p.val < 8192 ∧ j < 16384 then
    blockArr V c (ix2 ⟨512 * q + p.val, h.1⟩ ⟨j, h.2⟩) * yArr V c (ix2 ⟨j, h.2⟩ o)
  else 0

/-- Row block `q`'s starting value: the self term at row 512q + p and column `o`. -/
def sStart (c : Dev nD) (p : Fin 512) (o : Fin 1024) (q : ℕ) : EReal :=
  if h : 512 * q + p.val < 16384 then ∑ d : Fin 1024, xArr V c (ix2 ⟨512 * q + p.val, h⟩ d) * wsArr V c (ix2 d o) else 0

/-- The accumulator's entry (p, o) after point `n` (zero past the grid). -/
def accAt (c : Dev nD) (p : Fin 512) (o : Fin 1024) (n : ℕ) : EReal :=
  if h : n < cfg1.N then ((outsAt1 V c n h).2 : S512x1024.Idx → EReal) (ix2 p o) else 0

/-! ## One point's two products -/

/-- The product of the two staged blocks at (p, o): the point's 2048 values of the source sequence. -/
theorem blockSum (c : Dev nD) (t : Fin cfg1.N) (p : Fin 512) (o : Fin 1024) :
    ∑ a : Fin 2048, blk0 V c t (ix2 p a) * blk1 V c t (ix2 a o)
      = ∑ j : Fin 2048, eSeq V c p o (t.val / 8) (2048 * (t.val % 8) + j.val) := by
  have hN : t.val < 128 := lt_of_lt_of_eq t.isLt (show cfg1.N = 128 from N_1)
  have hp : p.val < 512 := p.isLt
  refine Finset.sum_congr rfl fun a _ => ?_
  have ha : a.val < 2048 := a.isLt
  have h1 : 512 * (t.val / 8) + p.val < 8192 := by omega
  have h2 : 2048 * (t.val % 8) + a.val < 16384 := by omega
  unfold eSeq
  rw [dif_pos ⟨h1, h2⟩]
  exact congrArg₂ (· * ·) (iblk1_0_apply V c t (ix2 p a) (ix2 ⟨512 * (t.val / 8) + p.val, h1⟩ ⟨2048 * (t.val % 8) + a.val, h2⟩) rfl rfl)
    (iblk1_1_apply V c t (ix2 a o) (ix2 ⟨2048 * (t.val % 8) + a.val, h2⟩ o) rfl rfl)

/-- The self product at (p, o): the row block's starting value. -/
theorem selfSum (c : Dev nD) (t : Fin cfg1.N) (p : Fin 512) (o : Fin 1024) :
    ∑ d : Fin 1024, blk2 V c t (ix2 p d) * blk3 V c t (ix2 d o)
      = sStart V c p o (t.val / 8) := by
  have hN : t.val < 128 := lt_of_lt_of_eq t.isLt (show cfg1.N = 128 from N_1)
  have hp : p.val < 512 := p.isLt
  have h1 : 512 * (t.val / 8) + p.val < 16384 := by omega
  unfold sStart
  rw [dif_pos h1]
  refine Finset.sum_congr rfl fun d _ => ?_
  exact congrArg₂ (· * ·) (iblk1_2_apply V c t (ix2 p d) (ix2 ⟨512 * (t.val / 8) + p.val, h1⟩ d) rfl rfl)
    (iblk1_3_apply V c t (ix2 d o) (ix2 d o) rfl rfl)

/-! ## The two stored values over plain blocks -/

/-- The value stored at the first source block, at (p, o): the self product plus the block product. -/
theorem first_val (x0 : S512x2048.Idx → EReal) (x1 : S2048x1024.Idx → EReal) (x2 : S512x1024.Idx → EReal) (x3 : S1024x1024.Idx → EReal)
    (p : Fin 512) (o : Fin 1024) :
    (k1_pay2 (F := Ideal) x0 (k1_pay1 (F := Ideal) x2 x3) x1 : S512x1024.Idx → EReal) (ix2 p o)
      = (∑ d : Fin 1024, x2 (ix2 p d) * x3 (ix2 d o)) + ∑ a : Fin 2048, x0 (ix2 p a) * x1 (ix2 a o) :=
  (pay_acc x0 (k1_pay1 (F := Ideal) x2 x3) x1 p o).trans (congrArg (· + ∑ a : Fin 2048, x0 (ix2 p a) * x1 (ix2 a o)) (pay_self x2 x3 p o))

/-- The value stored at a later source block, at (p, o): what was there plus the block product. -/
theorem next_val (x0 : S512x2048.Idx → EReal) (x1 : S2048x1024.Idx → EReal) (xs : S512x1024.Idx → EReal)
    (p : Fin 512) (o : Fin 1024) :
    (k1_pay2 (F := Ideal) x0 xs x1 : S512x1024.Idx → EReal) (ix2 p o) = xs (ix2 p o) + ∑ a : Fin 2048, x0 (ix2 p a) * x1 (ix2 a o) :=
  pay_acc x0 xs x1 p o

/-! ## The recurrence, point by point -/

/-- At the first source block: the starting value plus the point's values. -/
theorem acc_first (c : Dev nD) (t : Fin cfg1.N) (h0 : t.val % 8 = 0) (p : Fin 512) (o : Fin 1024) :
    ((outsAt1 V c t.val t.isLt).2 : S512x1024.Idx → EReal) (ix2 p o)
      = sStart V c p o (t.val / 8) + ∑ j : Fin 2048, eSeq V c p o (t.val / 8) (2048 * (t.val % 8) + j.val) := by
  have h1 : ¬t.val % 8 = 7 := by omega
  rw [outsAt1_A V c t h0 h1]
  dsimp only
  unfold sA
  rw [sout1_A_eq]
  exact (first_val (blk0 V c t) (blk1 V c t) (blk2 V c t) (blk3 V c t) p o).trans
    (congrArg₂ (· + ·) (selfSum V c t p o) (blockSum V c t p o))

/-- At a later source block: what the point before left plus the point's values. -/
theorem acc_next (c : Dev nD) (t : Fin cfg1.N) (h0 : ¬t.val % 8 = 0) (p : Fin 512) (o : Fin 1024) :
    ((outsAt1 V c t.val t.isLt).2 : S512x1024.Idx → EReal) (ix2 p o)
      = ((outsAt1 V c (t.val - 1) (Nat.lt_of_le_of_lt (Nat.sub_le _ _) t.isLt)).2 : S512x1024.Idx → EReal) (ix2 p o)
        + ∑ j : Fin 2048, eSeq V c p o (t.val / 8) (2048 * (t.val % 8) + j.val) := by
  by_cases h1 : t.val % 8 = 7
  · rw [outsAt1_C V c t h0 h1]
    dsimp only
    unfold sC
    rw [sout1_C_eq]
    exact (next_val (blk0 V c t) (blk1 V c t) _ p o).trans (congrArg (_ + ·) (blockSum V c t p o))
  · rw [outsAt1_B V c t h0 h1]
    dsimp only
    unfold sB
    rw [sout1_B_eq]
    exact (next_val (blk0 V c t) (blk1 V c t) _ p o).trans (congrArg (_ + ·) (blockSum V c t p o))

/-- After the last source block of a row block: the starting value plus all 16384 values. -/
theorem acc_last (c : Dev nD) (t : Fin cfg1.N) (h7 : t.val % 8 = 7) (p : Fin 512) (o : Fin 1024) :
    ((outsAt1 V c t.val t.isLt).2 : S512x1024.Idx → EReal) (ix2 p o)
      = sStart V c p o (t.val / 8) + ∑ j ∈ Finset.range (2048 * 8), eSeq V c p o (t.val / 8) j := by
  have key := Cert.LibAccumulateFrom.accumulate_from_last 2048 8 cfg1.N (by decide) (sStart V c p o) (eSeq V c p o) (accAt V c p o)
    (fun n hn h0 => by
      unfold accAt; rw [dif_pos hn]
      exact acc_first V c ⟨n, hn⟩ h0 p o)
    (fun n hn h0 => by
      unfold accAt; rw [dif_pos hn, dif_pos (Nat.lt_of_le_of_lt (Nat.sub_le _ _) hn)]
      exact acc_next V c ⟨n, hn⟩ h0 p o)
    t.val t.isLt h7
  unfold accAt at key
  rw [dif_pos t.isLt] at key
  exact key

/-- At the last source block the output window's staging buffer holds what the accumulator holds. -/
theorem out_eq_acc (c : Dev nD) (t : Fin cfg1.N) (h7 : t.val % 8 = 7) :
    (outsAt1 V c t.val t.isLt).1 = (outsAt1 V c t.val t.isLt).2 := by
  have h0 : ¬t.val % 8 = 0 := by omega
  rw [outsAt1_C V c t h0 h7]
  dsimp only
  unfold oC sC
  rw [out1_C_4_eq, sout1_C_eq]

/-! ## The closed form of a finished row block -/

/-- What the region leaves in the result array, as one function of the arrays it reads: at (r, o) the self term of
    row r plus the aggregation over all sources. -/
def G1 (c : Dev nD) : S8192x1024.Idx → EReal := fun j =>
  (∑ d : Fin 1024, xArr V c (ix2 (Cert.SageSpec.up (j 0)) d) * wsArr V c (ix2 d (j 1)))
    + ∑ s : Fin 16384, blockArr V c (ix2 (j 0) s) * yArr V c (ix2 s (j 1))

/-- After the last source block of row block t / 8 the output's buffer holds, at (p, o), `G1` at row 512·(t/8) + p. -/
theorem after_last (c : Dev nD) (t : Fin cfg1.N) (h7 : t.val % 8 = 7) (p : Fin 512) (o : Fin 1024)
    (r : Fin 8192) (hr : r.val = 512 * (t.val / 8) + p.val) :
    ((outsAt1 V c t.val t.isLt).1 : S512x1024.Idx → EReal) (ix2 p o) = G1 V c (ix2 r o) := by
  rw [out_eq_acc V c t h7, acc_last V c t h7 p o]
  have hr8 : 512 * (t.val / 8) + p.val < 8192 := hr ▸ r.isLt
  have hr16 : 512 * (t.val / 8) + p.val < 16384 := by omega
  show _ = (∑ d : Fin 1024, xArr V c (ix2 (Cert.SageSpec.up r) d) * wsArr V c (ix2 d o))
    + ∑ s : Fin 16384, blockArr V c (ix2 r s) * yArr V c (ix2 s o)
  have e1 : (⟨512 * (t.val / 8) + p.val, hr16⟩ : Fin 16384) = Cert.SageSpec.up r := Fin.ext (by rw [Cert.SageSpec.up_val]; exact hr.symm)
  have e2 : (⟨512 * (t.val / 8) + p.val, hr8⟩ : Fin 8192) = r := Fin.ext hr.symm
  refine congrArg₂ (· + ·) ?_ ?_
  · unfold sStart
    rw [dif_pos hr16, e1]
  · rw [show (2048 * 8 : ℕ) = 16384 from rfl, ← Cert.LibBlockAccumulate.range_sum_dite (fun s : Fin 16384 => blockArr V c (ix2 r s) * yArr V c (ix2 s o))]
    refine Finset.sum_congr rfl fun j _ => ?_
    unfold eSeq
    by_cases hj : j < 16384
    · rw [dif_pos ⟨hr8, hj⟩, dif_pos hj, e2]
    · rw [dif_neg (fun h => hj h.2), dif_neg hj]

end Cert.KernelIdeal.HandValue

end
-- ==== Proof.Ideal.Final1.lean ====
/-
  The second kernel region in closed form over the extended reals: the result array as one function of what the
  region finds.

  The output window is written back only at the last source block of a row block (points t with t % 8 = 7), with the
  accumulator's contents: rows 512·(t/8) … 512·(t/8) + 511 of `G1`, the self term plus the whole aggregation. The 16
  written-back blocks cover the 8192 rows (row r lies in the block written at point 8·(r/512) + 7), so after the region
  the result array is `G1` of the arrays as the region found them.
-/
import proofs.«174376_j14001593385221_2_alg».proof.Proof.Ideal.AccValue

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- Row `p` of the block written at point `t` is a row of the 8192. -/
theorem row1_lt (t : Fin cfg1.N) (p : Fin 512) : 512 * (t.val / 8) + p.val < 8192 := by
  have h1 : t.val < 128 := lt_of_lt_of_eq t.isLt N_1
  have h2 := p.isLt
  omega

/-- Entry (p, q) of the output window's block at point `t` is entry (512·(t/8) + p, q) of the result array. -/
theorem oblk1_emb (t : Fin cfg1.N) (p : Fin 512) (q : Fin 1024) :
    ((cfg1.win 4).blk t).view.emb (ix2 p q) = (ix2 ⟨512 * (t.val / 8) + p.val, row1_lt t p⟩ q : S8192x1024.Idx) := by
  refine funext fun b => Fin.ext ?_
  match b with
  | ⟨0, _⟩ => show win1_4.index t (0 : Fin 2) * 512 + 1 * p.val = 512 * (t.val / 8) + p.val; rw [(idx1_4 t).1]; omega
  | ⟨1, _⟩ => show win1_4.index t (1 : Fin 2) * 1024 + 1 * q.val = q.val; rw [(idx1_4 t).2]; omega

/-- At a point that writes back, the output's buffer holds, at a block index, `G1` at the array index the block puts it at. -/
theorem point1_eq (c : Dev nD) (t : Fin cfg1.N) (h7 : t.val % 8 = 7) (j : S512x1024.Idx) :
    ((outsAt1 V c t.val t.isLt).1 : S512x1024.Idx → EReal) j = G1 V c (((cfg1.win 4).blk t).view.emb j) := by
  obtain ⟨p, q, rfl⟩ : ∃ (p : Fin 512) (q : Fin 1024), j = ix2 p q := ⟨j 0, j 1, eq_ix2 j⟩
  refine (after_last V c t h7 p q ⟨512 * (t.val / 8) + p.val, row1_lt t p⟩ rfl).trans ?_
  exact congrArg (G1 V c) (oblk1_emb t p q).symm

/-- What a writing-back point writes is its block of `G1`. -/
theorem flushed1_eq (c : Dev nD) (t : Fin cfg1.N) (hf : (cfg1.win 4).flush t = true) :
    (dat1 (F := Ideal) V c).flushed 4 t = ((cfg1.win 4).blk t).view.read (Elt Ideal) (G1 V c) := by
  have h7 : t.val % 8 = 7 := (flush1_4 t).mp hf
  show (cfg1.win 4).cut (grid1.coords t) ((dat1 V c).after 4 t) = _
  rw [after1_4]
  funext j
  exact point1_eq V c t h7 j

/-- An index of the result array is in point `t`'s block iff each coordinate is in the block's range on its axis. -/
theorem mem_blk1 (t : Fin cfg1.N) (i : S8192x1024.Idx) :
    i ∈ ((cfg1.win 4).blk t).view.set ↔ ∀ a : Fin 2, win1_4.index t a * S512x1024.size a ≤ (i a).val
      ∧ (i a).val < win1_4.index t a * S512x1024.size a + S512x1024.size a := by
  show i ∈ ((View.whole main_v5).slice (win1_4.rect t)).set ↔ _
  rw [View.set_slice_whole, Rect.mem_set_unit]
  exact Iff.rfl

/-- Every index of the result array is in the block of some writing-back point: row `r` at point 8·(r/512) + 7. -/
theorem cover1 (i : S8192x1024.Idx) :
    ∃ t : Fin cfg1.N, (cfg1.win 4).flush t = true ∧ i ∈ ((cfg1.win 4).blk t).view.set := by
  have hi0 : (i 0).val < 8192 := (i 0).isLt
  have hi1 : (i 1).val < 1024 := (i 1).isLt
  obtain ⟨t, ht⟩ : ∃ t : Fin cfg1.N, t.val = 8 * ((i 0).val / 512) + 7 :=
    ⟨⟨8 * ((i 0).val / 512) + 7, lt_of_lt_of_eq (by omega : 8 * ((i 0).val / 512) + 7 < 128) N_1.symm⟩, rfl⟩
  refine ⟨t, (flush1_4 t).mpr (by rw [ht]; omega), ?_⟩
  rw [mem_blk1]
  intro a
  match a with
  | ⟨0, _⟩ =>
    show win1_4.index t (0 : Fin 2) * 512 ≤ (i 0).val ∧ (i 0).val < win1_4.index t (0 : Fin 2) * 512 + 512
    rw [(idx1_4 t).1, ht]; omega
  | ⟨1, _⟩ =>
    show win1_4.index t (1 : Fin 2) * 1024 ≤ (i 1).val ∧ (i 1).val < win1_4.index t (1 : Fin 2) * 1024 + 1024
    rw [(idx1_4 t).2]; omega

/-- After the region the result array is `G1` of the arrays as the region found them. -/
theorem final1 (c : Dev nD) : (dat1 (F := Ideal) V c).arrAt 4 cfg1.N = G1 V c :=
  (dat1 (F := Ideal) V c).arrAt_eq_of_cover 4 (G1 V c) (fun t hf => flushed1_eq V c t hf) (cover1)

end Cert.KernelIdeal.HandValue

end
-- ==== Proof.Ideal.YValue.lean ====
/-
  The first kernel region in closed form over the extended reals: the projected array as one function of what the
  region finds.

  Point t of the region's 8 grid points holds rows 2048·t … 2048·t + 2047 of the source array `x` and the whole of the
  transposed neighbour weights `wT`, and writes back the product of the two blocks as the same rows of the projected
  array. Over the extended reals that product at (p, c) is Σ_a x(2048·t + p, a) · wT(a, c), which is row 2048·t + p,
  column c of

      yOf x wT (r, o) = Σ_a x(r, a) · wT(a, o).

  So every point writes back its own block of `yOf x wT`; the 8 blocks cover the 16384 rows (row r lies in the block of
  point r / 2048); hence after the region the projected array is `yOf x wT`.
-/
import proofs.«174376_j14001593385221_2_alg».proof.Proof.Ideal.Region0
import proofs.«174376_j14001593385221_2_alg».proof.Proof.Payloads
import Idealize.ShloMosaic.Lib.Pipeline.Value
import Idealize.ShloMosaic.Lib.ValueIdx

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offsets of a whole-buffer access. -/
theorem hz : (![0, 0] : Fin 2 → Nat) = fun _ => 0 := funext fun a => by fin_cases a <;> rfl

/-- The projected array: entry (r, o) is the sum over the input features of `x`'s row `r` times `wT`'s column `o`. -/
def yOf (x : FVec Ideal S16384x1024 .f32) (wT : FVec Ideal S1024x1024 .bf16) : FVec Ideal S16384x1024 .bf16 :=
  fun j => ∑ a : Fin 1024, x (ix2 (j 0) a) * wT (ix2 a (j 1))

/-- `yOf` read at a row and a column. -/
theorem yOf_apply (x : FVec Ideal S16384x1024 .f32) (wT : FVec Ideal S1024x1024 .bf16) (r : Fin 16384) (o : Fin 1024) :
    yOf x wT (ix2 r o) = ∑ a : Fin 1024, x (ix2 r a) * wT (ix2 a o) := rfl

/-- The block indices at point `t`, decided over the 8 points: the source and the projected array are at block row `t`,
    column 0; the weights are at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `p` of point `t`'s block is a row of the 16384. -/
theorem row_lt (t : Fin cfg0.N) (p : Fin 2048) : t.val * 2048 + p.val < 16384 := by
  have h1 : t.val < 8 := lt_of_lt_of_eq t.isLt N_0
  have h2 := p.isLt
  omega

/-- The stored product of a block holding rows `row p` of `X` and a block holding the whole of `W` is, at (p, c), entry
    (`row p`, c) of `yOf X W`. -/
theorem pay_block (X : FVec Ideal S16384x1024 .f32) (W : FVec Ideal S1024x1024 .bf16)
    (x0 : Vec Ideal S2048x1024 .f32) (x1 : Vec Ideal S1024x1024 .bf16) (row : Fin 2048 → Fin 16384)
    (h0 : ∀ (p : Fin 2048) (a : Fin 1024), x0 (ix2 p a) = X (ix2 (row p) a))
    (h1 : ∀ (a c : Fin 1024), x1 (ix2 a c) = W (ix2 a c))
    (p : Fin 2048) (c : Fin 1024) :
    k0_pay1 x0 x1 (ix2 p c) = yOf X W (ix2 (row p) c) := by
  rw [Cert.KernelIdeal.PayValue.pay_y, yOf_apply]
  exact Finset.sum_congr rfl fun a _ => by rw [h0, h1]

/-- The source window's block at point `t` holds rows `2048·t + p` of the source array. -/
theorem iblk0_0_apply (c : Dev nD) (t : Fin cfg0.N) (p : Fin 2048) (a : Fin 1024) :
    (iblk0 V c 0 t : Vec Ideal S2048x1024 .f32) (ix2 p a)
      = (V c main_arg1 : FVec Ideal S16384x1024 .f32) (ix2 ⟨t.val * 2048 + p.val, row_lt t p⟩ a) := by
  obtain ⟨e0, e1, e2, e3, e4, e5⟩ := idx_facts t
  show (V c main_arg1 : FVec Ideal S16384x1024 .f32) (((cfg0.win 0).blk t).view.emb (ix2 p a)) = _
  refine congrArg (V c main_arg1 : FVec Ideal S16384x1024 .f32) (funext fun b => Fin.ext ?_)
  match b with
  | ⟨0, _⟩ => show win0_0.index t (0 : Fin 2) * 2048 + 1 * p.val = t.val * 2048 + p.val; rw [e0]; omega
  | ⟨1, _⟩ => show win0_0.index t (1 : Fin 2) * 1024 + 1 * a.val = a.val; rw [e1]; omega

/-- The weight window's block at every point is the whole weight array. -/
theorem iblk0_1_apply (c : Dev nD) (t : Fin cfg0.N) (a q : Fin 1024) :
    (iblk0 V c 1 t : Vec Ideal S1024x1024 .bf16) (ix2 a q) = (V c main_v1 : FVec Ideal S1024x1024 .bf16) (ix2 a q) := by
  obtain ⟨e0, e1, e2, e3, e4, e5⟩ := idx_facts t
  show (V c main_v1 : FVec Ideal S1024x1024 .bf16) (((cfg0.win 1).blk t).view.emb (ix2 a q)) = _
  refine congrArg (V c main_v1 : FVec Ideal S1024x1024 .bf16) (funext fun b => Fin.ext ?_)
  match b with
  | ⟨0, _⟩ => show win0_1.index t (0 : Fin 2) * 1024 + 1 * a.val = a.val; rw [e2]; omega
  | ⟨1, _⟩ => show win0_1.index t (1 : Fin 2) * 1024 + 1 * q.val = q.val; rw [e3]; omega

/-- Entry (p, q) of the output window's block at point `t` is entry (2048·t + p, q) of the projected array. -/
theorem oblk_emb (t : Fin cfg0.N) (p : Fin 2048) (q : Fin 1024) :
    ((cfg0.win 2).blk t).view.emb (ix2 p q) = (ix2 ⟨t.val * 2048 + p.val, row_lt t p⟩ q : S16384x1024.Idx) := by
  obtain ⟨e0, e1, e2, e3, e4, e5⟩ := idx_facts t
  refine funext fun b => Fin.ext ?_
  match b with
  | ⟨0, _⟩ => show win0_2.index t (0 : Fin 2) * 2048 + 1 * p.val = t.val * 2048 + p.val; rw [e4]; omega
  | ⟨1, _⟩ => show win0_2.index t (1 : Fin 2) * 1024 + 1 * q.val = q.val; rw [e5]; omega

/-- The product of the two input blocks at point `t`, at a block index, is `yOf` at the array index the output block
    puts it at. -/
theorem point_eq (c : Dev nD) (t : Fin cfg0.N) (j : S2048x1024.Idx) :
    k0_pay1 (iblk0 V c 0 t) (iblk0 V c 1 t) j
      = yOf (V c main_arg1) (V c main_v1) (((cfg0.win 2).blk t).view.emb j) := by
  obtain ⟨p, q, rfl⟩ : ∃ (p : Fin 2048) (q : Fin 1024), j = ix2 p q := ⟨j 0, j 1, eq_ix2 j⟩
  refine (pay_block (V c main_arg1) (V c main_v1) (iblk0 V c 0 t) (iblk0 V c 1 t)
    (fun p => ⟨t.val * 2048 + p.val, row_lt t p⟩) (iblk0_0_apply V c t) (iblk0_1_apply V c t) p q).trans ?_
  exact congrArg (yOf (V c main_arg1) (V c main_v1)) (oblk_emb t p q).symm

/-- What point `t` writes back is block `t` of `yOf` of the two arrays as the region finds them. -/
theorem flushed_eq (c : Dev nD) (t : Fin cfg0.N) :
    (dat0 (F := Ideal) V c).flushed 2 t = ((cfg0.win 2).blk t).view.read (Elt Ideal) (yOf (V c main_arg1) (V c main_v1)) := by
  show (cfg0.win 2).cut (grid0.coords t) ((dat0 V c).after 2 t) = _
  rw [after0_2]
  unfold out0_2
  rw [View.canon_unit_zero hz]
  simp only [View.ld_unit_zero (S := S2048x1024) hz, View.ld_unit_zero (S := S1024x1024) hz]
  funext j
  exact point_eq V c t j

/-- An index of the projected array is in point `t`'s block iff each coordinate is in the block's range on its axis. -/
theorem mem_blk (t : Fin cfg0.N) (i : S16384x1024.Idx) :
    i ∈ ((cfg0.win 2).blk t).view.set ↔ ∀ a : Fin 2, win0_2.index t a * S2048x1024.size a ≤ (i a).val
      ∧ (i a).val < win0_2.index t a * S2048x1024.size a + S2048x1024.size a := by
  show i ∈ ((View.whole main_v4).slice (win0_2.rect t)).set ↔ _
  rw [View.set_slice_whole, Rect.mem_set_unit]
  exact Iff.rfl

/-- Every index of the projected array is in some point's block: row `r` in the block of point `r / 2048`. -/
theorem cover (i : S16384x1024.Idx) :
    ∃ t : Fin cfg0.N, (cfg0.win 2).flush t = true ∧ i ∈ ((cfg0.win 2).blk t).view.set := by
  have hi0 : (i 0).val < 16384 := (i 0).isLt
  have hi1 : (i 1).val < 1024 := (i 1).isLt
  obtain ⟨t, ht⟩ : ∃ t : Fin cfg0.N, t.val = (i 0).val / 2048 :=
    ⟨⟨(i 0).val / 2048, lt_of_lt_of_eq (by omega : (i 0).val / 2048 < 8) N_0.symm⟩, rfl⟩
  obtain ⟨e0, e1, e2, e3, e4, e5⟩ := idx_facts t
  refine ⟨t, flush0_2 t, ?_⟩
  rw [mem_blk]
  intro a
  match a with
  | ⟨0, _⟩ =>
    show win0_2.index t (0 : Fin 2) * 2048 ≤ (i 0).val ∧ (i 0).val < win0_2.index t (0 : Fin 2) * 2048 + 2048
    rw [e4, ht]; omega
  | ⟨1, _⟩ =>
    show win0_2.index t (1 : Fin 2) * 1024 ≤ (i 1).val ∧ (i 1).val < win0_2.index t (1 : Fin 2) * 1024 + 1024
    rw [e5]; omega

/-- After the region the projected array is `yOf` of the source array and the transposed neighbour weights as the
    region found them. -/
theorem y_final (c : Dev nD) :
    (dat0 (F := Ideal) V c).arrAt 2 cfg0.N = yOf (V c main_arg1) (V c main_v1) :=
  (dat0 (F := Ideal) V c).arrAt_eq_of_cover 2 (yOf (V c main_arg1) (V c main_v1)) (fun t _ => flushed_eq V c t) cover

end Cert.KernelIdeal.HandValue

end
-- ==== Proof.HostWeights.lean ====
/-
  The weight matrices as the kernel's body sees them.

  Before the first kernel call each weight matrix is transposed and its entries are changed from the 32-bit to the
  16-bit format. Over the extended reals a format change is the identity, so the array the body receives reads at
  (input feature `a`, output feature `c`) the original matrix at (`c`, `a`).
-/
import proofs.«174376_j14001593385221_2_alg».proof.KernelIdeal
import Idealize.ShloMosaic.Lib.Pipeline.Value
import Idealize.ShloMosaic.Lib.ValueLayout
import Idealize.ShloMosaic.Lib.ValueIdx

noncomputable section

namespace Cert.KernelIdeal.HostValue

open Cert.KernelIdeal Idealize.ShloMosaic Idealize.ShloMosaic.ValueIdx

/-- The transposed and narrowed matrix at (`a`, `c`) is the matrix at (`c`, `a`), for any proofs of the two side
    conditions the operations carry. -/
theorem weightT_apply_of (w : FVec Ideal S1024x1024 .f32) (ht : S1024x1024.Transposes [1, 0] S1024x1024)
    (hb : FTy.bits .bf16 < FTy.bits .f32) (a c : Fin 1024) :
    (truncf .bf16 (transpose S1024x1024 [1, 0] w ht) hb : FVec Ideal S1024x1024 .bf16) (ix2 a c) = w (ix2 c a) := by
  rw [truncf_apply]
  exact transpose_ix2_apply w ht a c

section
variable [Facts₀]
open Facts₀

/-- The same with the side conditions the program's own text names. -/
theorem weightT_apply (w : FVec Ideal S1024x1024 .f32) (a c : Fin 1024) :
    (truncf .bf16 (transpose S1024x1024 [1, 0] w transposes_S1024x1024_S1024x1024_1_0) bitsLt_bf16_f32 :
        FVec Ideal S1024x1024 .bf16) (ix2 a c) = w (ix2 c a) :=
  weightT_apply_of w _ _ a c

end

end Cert.KernelIdeal.HostValue

end
-- ==== Proof.Ideal.EntryValues.lean ====
/-
  What the buffers hold when the second kernel region is entered, as functions of the launch memory, over the extended
  reals.

  Before the first region the host transposes each weight matrix and changes its format; over the extended reals the
  format change is the identity, so the transposed self weights read at (d, o) are `w_self` at (o, d), and likewise the
  transposed neighbour weights. The first region leaves `block` and `x` as launched (it reads `x` through an input
  window and never touches `block`) and leaves in the projected array, at (s, o),

      Σ_a x(s, a) · wnᵀ(a, o) = Σ_a x(s, a) · w_neighbor(o, a),

  which is the specification's projection `proj x w_neighbor s o`.
-/
import proofs.«174376_j14001593385221_2_alg».proof.Proof.Ideal.Run
import proofs.«174376_j14001593385221_2_alg».proof.Proof.Ideal.YValue
import proofs.«174376_j14001593385221_2_alg».proof.Proof.HostWeights
import proofs.«174376_j14001593385221_2_alg».proof.Proof.Spec
import Idealize.ShloMosaic.Lib.StableHlo.Run
import Idealize.ShloMosaic.Lib.ValueIdx

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The four argument arrays of core `c` at launch: `block`, `x`, the self weights, the neighbour weights. -/
abbrev a0 (c : Dev nD) : FVec Ideal S8192x16384 .f32 := m ((c : Thread nD τ).loc main_arg0)
abbrev a1 (c : Dev nD) : FVec Ideal S16384x1024 .f32 := m ((c : Thread nD τ).loc main_arg1)
abbrev a2 (c : Dev nD) : FVec Ideal S1024x1024 .f32 := m ((c : Thread nD τ).loc main_arg2)
abbrev a3 (c : Dev nD) : FVec Ideal S1024x1024 .f32 := m ((c : Thread nD τ).loc main_arg3)

/-- `block` is as launched: neither the host stretch nor the first region writes it. -/
theorem V2_block (c : Dev nD) : (Hand.V2 m c main_arg0 : S8192x16384.Idx → EReal) = a0 m c :=
  (W2_of_ne m c main_arg0 (by decide)).trans (W1_of m c main_arg0 (by decide))

/-- `x` is as launched when the first region is entered: the host stretch does not write it. -/
theorem V1_x (c : Dev nD) : (Hand.V1 m c main_arg1 : S16384x1024.Idx → EReal) = a1 m c :=
  W1_of m c main_arg1 (by decide)

/-- `x` is as launched when the second region is entered: the first region reads it through an input window. -/
theorem V2_x (c : Dev nD) : (Hand.V2 m c main_arg1 : S16384x1024.Idx → EReal) = a1 m c :=
  ((W2_arr m c 0).trans (((dat0 (Hand.V1 m) c).arrAt_in 0 rfl _).trans (A_eq0 (Hand.V1 m) c 0))).trans
    (W1_of m c main_arg1 (by decide))

/-- After the host stretch the converted self-weight array is the launch self weights transposed and narrowed. -/
theorem W1_v3 (c : Dev nD) : (W1 m c (Proc.devRef .tc main_v3) : S1024x1024.Idx → EReal)
    = (truncf .bf16 (transpose S1024x1024 [1, 0] (a2 m c) transposes_S1024x1024_S1024x1024_1_0) bitsLt_bf16_f32 :
        FVec Ideal S1024x1024 .bf16) := by
  show StableHlo.after hostOps0 (fun b => m (c, b)) (Proc.devRef .tc main_v3) = _
  after_results

/-- After the host stretch the converted neighbour-weight array is the launch neighbour weights transposed and narrowed. -/
theorem W1_v1 (c : Dev nD) : (W1 m c (Proc.devRef .tc main_v1) : S1024x1024.Idx → EReal)
    = (truncf .bf16 (transpose S1024x1024 [1, 0] (a3 m c) transposes_S1024x1024_S1024x1024_1_0) bitsLt_bf16_f32 :
        FVec Ideal S1024x1024 .bf16) := by
  show StableHlo.after hostOps0 (fun b => m (c, b)) (Proc.devRef .tc main_v1) = _
  after_results

/-- The transposed self weights at (input feature `d`, output feature `o`) are `w_self` at (`o`, `d`); the first region
    does not write them. -/
theorem V2_ws_apply (c : Dev nD) (d o : Fin 1024) :
    (Hand.V2 m c main_v3 : S1024x1024.Idx → EReal) (ix2 d o) = a2 m c (ix2 o d) := by
  have e : (Hand.V2 m c main_v3 : S1024x1024.Idx → EReal) = _ := (W2_of_ne m c main_v3 (by decide)).trans (W1_v3 m c)
  rw [e]
  exact Cert.KernelIdeal.HostValue.weightT_apply_of (a2 m c) _ _ d o

/-- The transposed neighbour weights, as the first region finds them, at (`d`, `o`) are `w_neighbor` at (`o`, `d`). -/
theorem V1_wn_apply (c : Dev nD) (d o : Fin 1024) :
    (Hand.V1 m c main_v1 : S1024x1024.Idx → EReal) (ix2 d o) = a3 m c (ix2 o d) := by
  have e : (Hand.V1 m c main_v1 : S1024x1024.Idx → EReal) = _ := W1_v1 m c
  rw [e]
  exact Cert.KernelIdeal.HostValue.weightT_apply_of (a3 m c) _ _ d o

/-- The projected array, as the second region finds it, at (source `s`, output feature `o`) is the specification's
    projection of `x` by the neighbour weights. -/
theorem V2_y_apply (c : Dev nD) (s : Fin 16384) (o : Fin 1024) :
    (Hand.V2 m c main_v4 : S16384x1024.Idx → EReal) (ix2 s o) = Cert.SageSpec.proj (a1 m c) (a3 m c) s o := by
  have e : (Hand.V2 m c main_v4 : S16384x1024.Idx → EReal) = yOf (Hand.V1 m c main_arg1) (Hand.V1 m c main_v1) :=
    (W2_arr m c 2).trans (y_final (Hand.V1 m) c)
  refine (congrFun e (ix2 s o)).trans ?_
  refine (yOf_apply (Hand.V1 m c main_arg1) (Hand.V1 m c main_v1) s o).trans ?_
  unfold Cert.SageSpec.proj
  refine Finset.sum_congr rfl fun a _ => ?_
  exact congr (congrArg _ (congrFun (V1_x m c) (ix2 s a))) (V1_wn_apply m c a o)

end Cert.KernelIdeal.HandValue

end
-- ==== Proof.Ideal.Final.lean ====
/-
  The kernel program's result over the extended reals.

  When the second region is entered, `block` and `x` are as launched, the transposed self weights read at (d, o) are
  `w_self` at (o, d), and the projected array at (s, o) is the specification's projection of `x` by `w_neighbor`. So
  what the second region leaves in the result array — the self term plus the aggregation over all sources, of the
  arrays it finds — is the specification's `G` of the four launch arrays; and the program's run ends with the result
  array at `G` and the arguments unchanged.
-/
import proofs.«174376_j14001593385221_2_alg».proof.Proof.Ideal.Final1
import proofs.«174376_j14001593385221_2_alg».proof.Proof.Ideal.EntryValues

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The second region's closed form, when the arrays it reads are `B`, `X`, the transpose of `Ws`, and the projection
    of `X` by `Wn`, is the specification's result of `B`, `X`, `Ws`, `Wn`. -/
theorem G1_of (c : Dev nD) (B : FVec Ideal S8192x16384 .f32) (X : FVec Ideal S16384x1024 .f32) (Ws Wn : FVec Ideal S1024x1024 .f32)
    (hB : blockArr V c = B) (hX : xArr V c = X) (hWs : ∀ d o : Fin 1024, wsArr V c (ix2 d o) = Ws (ix2 o d))
    (hY : ∀ (s : Fin 16384) (o : Fin 1024), yArr V c (ix2 s o) = Cert.SageSpec.proj X Wn s o) :
    G1 V c = Cert.SageSpec.G B X Ws Wn := by
  funext j
  obtain ⟨r, o, rfl⟩ : ∃ (r : Fin 8192) (o : Fin 1024), j = ix2 r o := ⟨j 0, j 1, eq_ix2 j⟩
  rw [Cert.SageSpec.G_apply]
  show (∑ d : Fin 1024, xArr V c (ix2 (Cert.SageSpec.up r) d) * wsArr V c (ix2 d o))
    + ∑ s : Fin 16384, blockArr V c (ix2 r s) * yArr V c (ix2 s o) = _
  unfold Cert.SageSpec.selfTerm
  refine congrArg₂ (· + ·) (Finset.sum_congr rfl fun d _ => ?_) (Finset.sum_congr rfl fun s _ => ?_)
  · rw [hX, hWs]
  · rw [hB, hY]

variable (m : (ℓ : Loc nD τ sig) → Buf (Elt Ideal) ℓ) (ρ : Dev nD → PrngReg)

/-- At the contents the second region actually finds, its closed form is `G` of the four launch arrays. -/
theorem G1_entry (c : Dev nD) : G1 (Hand.V2 m) c = Cert.SageSpec.G (a0 m c) (a1 m c) (a2 m c) (a3 m c) :=
  G1_of (Hand.V2 m) c (a0 m c) (a1 m c) (a2 m c) (a3 m c) (V2_block m c) (V2_x m c) (V2_ws_apply m c) (V2_y_apply m c)

/-- THE RUN WITH ITS VALUE: every weakly fair execution of the idealized kernel program terminates, nothing faulting,
    with the result array at `G` of the four launch arrays and the arguments unchanged. -/
theorem run_G : θ_run defs (onTc (τ := τ) (main (F := Ideal))) ⟨m, fun _ => 0, ρ⟩ (fun r => ∀ c : Dev nD,
      r.2.mem ((c.tc : Thread nD τ).loc main_v5) = Cert.SageSpec.G (a0 m c) (a1 m c) (a2 m c) (a3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans ((final1 (Hand.V2 m) c).trans (G1_entry m c)), (h c).2⟩)
    (run_result m ρ)

end Cert.KernelIdeal.HandValue

end
-- ==== Proof.RefValue.lean ====
/-
  The reference program's result, entry by entry, is the function `G` of the specification.

  The reference computes  slice(x)·wsᵀ + block·(x·wnᵀ).  Reading each operation at an index turns the result entry
  (i, o) into  Σ_d x(i, d)·ws(o, d) + Σ_s block(i, s)·(Σ_d x(s, d)·wn(o, d)),  which is `G` by definition; the only
  work is to recognise each index the operations read at as the pair of its two coordinates.
-/
import proofs.«174376_j14001593385221_2_alg».proof.Proof.Gen.ReferenceIdeal.Read
import proofs.«174376_j14001593385221_2_alg».proof.Proof.Spec

noncomputable section

namespace Cert.ReferenceIdeal.RefValue

open Cert.ReferenceIdeal Cert.ReferenceIdeal.Read Idealize.ShloMosaic Idealize.ShloMosaic.ValueIdx

/-- The row slice followed by the left index of the self product reads `x` at (row `i` of the 16384, column `k`). -/
theorem self_lhs_idx (i : Fin 8192) (o k : Fin 1024) :
    idx_main_v0 (lidx_main_v1 (ix2 i o) k) = ix2 (Cert.SageSpec.up i) k :=
  funext fun a => Fin.ext (by match a with | ⟨0, _⟩ => rfl | ⟨1, _⟩ => rfl)

/-- The right index of the self product reads the self weights at (output feature `o`, input feature `k`). -/
theorem self_rhs_idx (i : Fin 8192) (o k : Fin 1024) : ridx_main_v1 (ix2 i o) k = ix2 o k :=
  funext fun a => Fin.ext (by match a with | ⟨0, _⟩ => rfl | ⟨1, _⟩ => rfl)

/-- The left index of the aggregation reads `block` at (row `i`, source `s`). -/
theorem agg_lhs_idx (i : Fin 8192) (o : Fin 1024) (s : Fin 16384) : lidx_main_v3 (ix2 i o) s = ix2 i s :=
  funext fun a => Fin.ext (by match a with | ⟨0, _⟩ => rfl | ⟨1, _⟩ => rfl)

/-- The right index of the aggregation reads the projected rows at (source `s`, output feature `o`). -/
theorem agg_rhs_idx (i : Fin 8192) (o : Fin 1024) (s : Fin 16384) : ridx_main_v3 (ix2 i o) s = ix2 s o :=
  funext fun a => Fin.ext (by match a with | ⟨0, _⟩ => rfl | ⟨1, _⟩ => rfl)

/-- The left index of the projection reads `x` at (source `s`, input feature `d`). -/
theorem proj_lhs_idx (s : Fin 16384) (o d : Fin 1024) : lidx_main_v2 (ix2 s o) d = ix2 s d :=
  funext fun a => Fin.ext (by match a with | ⟨0, _⟩ => rfl | ⟨1, _⟩ => rfl)

/-- The right index of the projection reads the neighbour weights at (output feature `o`, input feature `d`). -/
theorem proj_rhs_idx (s : Fin 16384) (o d : Fin 1024) : ridx_main_v2 (ix2 s o) d = ix2 o d :=
  funext fun a => Fin.ext (by match a with | ⟨0, _⟩ => rfl | ⟨1, _⟩ => rfl)

/-- The self product at (i, o) is the specification's self term. -/
theorem self_sum (x1 : FVec Ideal Cert.ReferenceIdeal.S16384x1024 .f32) (x2 : FVec Ideal Cert.ReferenceIdeal.S1024x1024 .f32)
    (i : Fin 8192) (o : Fin 1024) :
    val_main_v1 (F := Ideal) x1 x2 (ix2 i o) = Cert.SageSpec.selfTerm x1 x2 i o := by
  rw [val_main_v1_apply]
  unfold Cert.SageSpec.selfTerm
  refine Finset.sum_congr rfl fun k _ => ?_
  rw [val_main_v0_apply, self_lhs_idx, self_rhs_idx]

/-- The projection at (s, o) is the specification's projection. -/
theorem proj_val (x1 : FVec Ideal Cert.ReferenceIdeal.S16384x1024 .f32) (x3 : FVec Ideal Cert.ReferenceIdeal.S1024x1024 .f32)
    (s : Fin 16384) (o : Fin 1024) :
    val_main_v2 (F := Ideal) x1 x3 (ix2 s o) = Cert.SageSpec.proj x1 x3 s o := by
  rw [val_main_v2_apply]
  unfold Cert.SageSpec.proj
  refine Finset.sum_congr rfl fun d _ => ?_
  rw [proj_lhs_idx, proj_rhs_idx]

/-- The aggregation at (i, o) is the sum over the sources of `block` times the projection. -/
theorem agg_sum (x0 : FVec Ideal Cert.ReferenceIdeal.S8192x16384 .f32) (x1 : FVec Ideal Cert.ReferenceIdeal.S16384x1024 .f32)
    (x3 : FVec Ideal Cert.ReferenceIdeal.S1024x1024 .f32) (i : Fin 8192) (o : Fin 1024) :
    val_main_v3 (F := Ideal) x0 x1 x3 (ix2 i o) = ∑ s : Fin 16384, x0 (ix2 i s) * Cert.SageSpec.proj x1 x3 s o := by
  rw [val_main_v3_apply]
  refine Finset.sum_congr rfl fun s _ => ?_
  rw [agg_lhs_idx, agg_rhs_idx, proj_val]

/-- The reference's result array is `G` of the four arguments. -/
theorem ref_eq_G (x0 : FVec Ideal Cert.ReferenceIdeal.S8192x16384 .f32) (x1 : FVec Ideal Cert.ReferenceIdeal.S16384x1024 .f32)
    (x2 x3 : FVec Ideal Cert.ReferenceIdeal.S1024x1024 .f32) :
    Cert.ReferenceIdeal.Read.val_main_v4 (F := Ideal) x0 x1 x2 x3 = Cert.SageSpec.G x0 x1 x2 x3 := by
  funext j
  obtain ⟨i, o, rfl⟩ : ∃ (i : Fin 8192) (o : Fin 1024), j = ix2 i o := ⟨j 0, j 1, eq_ix2 j⟩
  rw [val_main_v4_apply, Ideal.addf_def, self_sum, agg_sum, Cert.SageSpec.G_apply]

end Cert.ReferenceIdeal.RefValue

end
-- ==== Proof.lean ====
/-
  A graph-convolution layer: out = x[:8192] · w_selfᵀ + block · (x · w_neighborᵀ), over float32 arrays
  block [8192, 16384], x [16384, 1024], w_self and w_neighbor [1024, 1024].

  The kernel program transposes the two weight matrices on the host, then runs two kernel regions. The first walks 8
  grid points and writes y = x · w_neighborᵀ, 2048 rows per point. The second walks a 16 × 8 grid, the source axis
  innermost: at the first source block of a row block it sets a scratch accumulator to the self product of its 512
  rows, at every source block it adds the product of a 512 × 2048 tile of `block` with 2048 rows of y, and at the last
  source block it copies the accumulator to the output. The reference slices x, takes the three products whole and adds.

  Over the extended reals both compute, at (i, o),  Σ_d x(i,d)·w_self(o,d) + Σ_s block(i,s)·(Σ_d x(s,d)·w_neighbor(o,d)):
  a change of float format is the identity there, a product into a zero accumulator is the plain sum of products, and
  the kernel's eight partial sums over consecutive source blocks, added in order onto the self term, are the reference's
  one sum over all sources — a regrouping of a finite sum, which holds in any additive commutative monoid and so needs
  no finiteness of the inputs. The ideal pass rewrote no operation, so the idealized kernel is the kernel's own text.

  Frames. Neither kernel program's frame is generated (the second region carries its accumulator from point to point),
  so both regions' runs are proved here, once for any float instance, and instantiated at the word level and at the
  extended reals: region by region the body's triple, the proof data, the body obligation; then the whole program as
  host stretch, region, region. The reference is a host program; its frame is its generated run with the result dropped.
-/
import proofs.«174376_j14001593385221_2_alg».proof.Defs
import proofs.«174376_j14001593385221_2_alg».proof.Proof.Gen.Kernel
import proofs.«174376_j14001593385221_2_alg».proof.Proof.Gen.KernelIdeal
import proofs.«174376_j14001593385221_2_alg».proof.Proof.Gen.ReferenceIdeal
import proofs.«174376_j14001593385221_2_alg».proof.Proof.Gen.Pre_finite_inputs
import proofs.«174376_j14001593385221_2_alg».proof.Proof.Gen.ReferenceIdeal.Run
import proofs.«174376_j14001593385221_2_alg».proof.Proof.Gen.ReferenceIdeal.Read
import proofs.«174376_j14001593385221_2_alg».proof.Proof.Bits.Run
import proofs.«174376_j14001593385221_2_alg».proof.Proof.Ideal.Run
import proofs.«174376_j14001593385221_2_alg».proof.Proof.Ideal.Final
import proofs.«174376_j14001593385221_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs to the end, faults nowhere and leaves its four arguments unchanged. -/
theorem frame_k : Cert.frame_Kernel := fun m ρ _ => Cert.Kernel.Hand.frame m ρ

/-- The same of the idealized kernel program: the same run read at the extended reals. -/
theorem frame_ki : Cert.frame_KernelIdeal := fun m ρ _ => Cert.KernelIdeal.Hand.frame m ρ

/-- The reference is five host operations: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: there is no rewrite to justify. -/
theorem preserves : Cert.preserves_Kernel_KernelIdeal := trivial

/-- From memories agreeing on the four arguments both idealized programs end with the result array at `G` of the
    arguments: the kernel program by its two regions' closed forms, the reference by reading its five operations at
    an index. -/
theorem algebraic : Cert.algebraic_KernelIdeal_ReferenceIdeal := by
  intro m ρ m' ρ' _ hagree
  refine ⟨fun c => Cert.SageSpec.G (Cert.KernelIdeal.HandValue.a0 m c) (Cert.KernelIdeal.HandValue.a1 m c)
      (Cert.KernelIdeal.HandValue.a2 m c) (Cert.KernelIdeal.HandValue.a3 m c),
    Cert.KernelIdeal.HandValue.run_G m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v4_eq _ _ _ _).trans (Cert.ReferenceIdeal.RefValue.ref_eq_G _ _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
